-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x96x224x224 : Shape := ⟨4, ![2, 96, 224, 224]⟩
abbrev S96x864 : Shape := ⟨2, ![96, 864]⟩
abbrev S_ : Shape := ⟨0, ![]⟩

class Facts : Prop where
  bcast_S_S2x96x224x224 : S_.BroadcastsInDim S2x96x224x224 (![] : Fin 0 → Fin S2x96x224x224.rank)
  reducesTo_S2x96x224x224_S_d0_1_2_3 : S2x96x224x224.ReducesTo [0, 1, 2, 3] S_
  h_S_ : 0 < S_.numel
  bcast_S_S96x864 : S_.BroadcastsInDim S96x864 (![] : Fin 0 → Fin S96x864.rank)
  reducesTo_S96x864_S_d0_1 : S96x864.ReducesTo [0, 1] S_

variable [Facts]

def fn {F : FTy → Type} [FloatOps F] (main_arg0 : FVec F S2x96x224x224 .f32) (main_arg1 : FVec F S96x864 .f32) (main_arg2 : FVec F S96x864 .f32) : IVec S_ 1 :=
  let main_v0 : FVec F S2x96x224x224 .f32 := Host.absf main_arg0
  let main_cst : FVec F S_ .f32 := constant S_ .f32 0x7F800000#32
  let main_v1 : FVec F S2x96x224x224 .f32 := broadcastInDim S2x96x224x224 ![] bcast_S_S2x96x224x224 main_cst
  let main_v2 : IVec S2x96x224x224 1 := cmpf .olt main_v0 main_v1
  let main_c : IVec S_ 1 := constantI S_ 1 1#1
  let main_v3 : IVec S_ 1 := (fun x v => Host.reduce IntOp.andi x v reducesTo_S2x96x224x224_S_d0_1_2_3 h_S_) main_v2 main_c
  let main_v4 : FVec F S96x864 .f32 := Host.absf main_arg1
  let main_cst_0 : FVec F S_ .f32 := constant S_ .f32 0x7F800000#32
  let main_v5 : FVec F S96x864 .f32 := broadcastInDim S96x864 ![] bcast_S_S96x864 main_cst_0
  let main_v6 : IVec S96x864 1 := cmpf .olt main_v4 main_v5
  let main_c_1 : IVec S_ 1 := constantI S_ 1 1#1
  let main_v7 : IVec S_ 1 := (fun x v => Host.reduce IntOp.andi x v reducesTo_S96x864_S_d0_1 h_S_) main_v6 main_c_1
  let main_v8 : IVec S_ 1 := andi main_v3 main_v7
  let main_v9 : FVec F S96x864 .f32 := Host.absf main_arg2
  let main_cst_2 : FVec F S_ .f32 := constant S_ .f32 0x7F800000#32
  let main_v10 : FVec F S96x864 .f32 := broadcastInDim S96x864 ![] bcast_S_S96x864 main_cst_2
  let main_v11 : IVec S96x864 1 := cmpf .olt main_v9 main_v10
  let main_c_3 : IVec S_ 1 := constantI S_ 1 1#1
  let main_v12 : IVec S_ 1 := (fun x v => Host.reduce IntOp.andi x v reducesTo_S96x864_S_d0_1 h_S_) main_v11 main_c_3
  let main_v13 : IVec S_ 1 := andi main_v8 main_v12
  main_v13
-- ==== Kernel.lean ====
abbrev S2x96x224x224 : Shape := ⟨4, ![2, 96, 224, 224]⟩
abbrev S96x864 : Shape := ⟨2, ![96, 864]⟩
abbrev S2x96x222x222 : Shape := ⟨4, ![2, 96, 222, 222]⟩
abbrev S1x96x32x224 : Shape := ⟨4, ![1, 96, 32, 224]⟩
abbrev S1x96x8x224 : Shape := ⟨4, ![1, 96, 8, 224]⟩
abbrev S1x96x32x222 : Shape := ⟨4, ![1, 96, 32, 222]⟩
abbrev S96x32x224 : Shape := ⟨3, ![96, 32, 224]⟩
abbrev S96x8x224 : Shape := ⟨3, ![96, 8, 224]⟩
abbrev S96x40x224 : Shape := ⟨3, ![96, 40, 224]⟩
abbrev S96x34x224 : Shape := ⟨3, ![96, 34, 224]⟩
abbrev S96x34x32 : Shape := ⟨3, ![96, 34, 32]⟩
abbrev S96x34x256 : Shape := ⟨3, ![96, 34, 256]⟩
abbrev S96x8704 : Shape := ⟨2, ![96, 8704]⟩
abbrev S96x8192 : Shape := ⟨2, ![96, 8192]⟩
abbrev S96x8703 : Shape := ⟨2, ![96, 8703]⟩
abbrev S96x1 : Shape := ⟨2, ![96, 1]⟩
abbrev S96x8702 : Shape := ⟨2, ![96, 8702]⟩
abbrev S96x2 : Shape := ⟨2, ![96, 2]⟩
abbrev S864x8192 : Shape := ⟨2, ![864, 8192]⟩
abbrev S96x32x256 : Shape := ⟨3, ![96, 32, 256]⟩
abbrev S96x32x222 : Shape := ⟨3, ![96, 32, 222]⟩

abbrev nBuf : Space → Nat
  | .hbm => 4
  | .vmem => 8
  | .smem => 0
  | _ => 0

abbrev bufTy : (tb : Table) → Fin (tcTables nBuf tb) → BufTy
  | .hbm, ⟨0, _⟩ => ⟨S2x96x224x224, .f32⟩
  | .hbm, ⟨1, _⟩ => ⟨S96x864, .f32⟩
  | .hbm, ⟨2, _⟩ => ⟨S96x864, .f32⟩
  | .hbm, ⟨3, _⟩ => ⟨S2x96x222x222, .f32⟩
  | .local _ .vmem, ⟨0, _⟩ => ⟨S96x864, .f32⟩
  | .local _ .vmem, ⟨1, _⟩ => ⟨S96x864, .f32⟩
  | .local _ .vmem, ⟨2, _⟩ => ⟨S1x96x32x224, .f32⟩
  | .local _ .vmem, ⟨3, _⟩ => ⟨S1x96x32x224, .f32⟩
  | .local _ .vmem, ⟨4, _⟩ => ⟨S1x96x8x224, .f32⟩
  | .local _ .vmem, ⟨5, _⟩ => ⟨S1x96x8x224, .f32⟩
  | .local _ .vmem, ⟨6, _⟩ => ⟨S1x96x32x222, .f32⟩
  | .local _ .vmem, ⟨7, _⟩ => ⟨S1x96x32x222, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c4_i32_0 : BitVec 32 := 4#32
  let v1 : BitVec 32 := Scalar.addi v0 c4_i32_0
  let c27_i32 : BitVec 32 := 27#32
  let v2 : BitVec 32 := Scalar.minsi v1 c27_i32
  let c0_i32 : BitVec 32 := 0#32
  let c0_i32_1 : BitVec 32 := 0#32
  let c0_i32_2 : BitVec 32 := 0#32
  ![arg0.toNat, c0_i32.toNat, v2.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S96x864 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S96x864 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x96x32x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x8x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x32x222 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S96x864_S96x864_0_0 : ∀ a, (![0, 0] : Fin 2 → Nat) a + S96x864.size a ≤ S96x864.size a
  h_S96x864 : 0 < S96x864.numel
  bitsLt_bf16_f32 : FTy.bits .bf16 < FTy.bits .f32
  inb_S1x96x32x224_S1x96x32x224_0_0_0_0 : ∀ a, (![0, 0, 0, 0] : Fin 4 → Nat) a + S1x96x32x224.size a ≤ S1x96x32x224.size a
  h_S1x96x32x224 : 0 < S1x96x32x224.numel
  shapeCasts_S1x96x32x224_S96x32x224 : S1x96x32x224.ShapeCasts S96x32x224
  inb_S1x96x8x224_S1x96x8x224_0_0_0_0 : ∀ a, (![0, 0, 0, 0] : Fin 4 → Nat) a + S1x96x8x224.size a ≤ S1x96x8x224.size a
  h_S1x96x8x224 : 0 < S1x96x8x224.numel
  shapeCasts_S1x96x8x224_S96x8x224 : S1x96x8x224.ShapeCasts S96x8x224
  concatenates_S96x32x224_S96x8x224_S96x40x224_d1 : Shape.Concatenates [S96x32x224, S96x8x224] S96x40x224 1
  slices_S96x40x224_o0_0_0_S96x34x224 : S96x40x224.Slices ![0, 0, 0] S96x34x224
  concatenates_S96x34x224_S96x34x32_S96x34x256_d2 : Shape.Concatenates [S96x34x224, S96x34x32] S96x34x256 2
  shapeCasts_S96x34x256_S96x8704 : S96x34x256.ShapeCasts S96x8704
  slices_S96x8704_o0_0_S96x8192 : S96x8704.Slices ![0, 0] S96x8192
  slices_S96x8704_o0_256_S96x8192 : S96x8704.Slices ![0, 256] S96x8192
  slices_S96x8704_o0_512_S96x8192 : S96x8704.Slices ![0, 512] S96x8192
  slices_S96x8704_o0_1_S96x8703 : S96x8704.Slices ![0, 1] S96x8703
  slices_S96x8704_o0_0_S96x1 : S96x8704.Slices ![0, 0] S96x1
  concatenates_S96x8703_S96x1_S96x8704_d1 : Shape.Concatenates [S96x8703, S96x1] S96x8704 1
  slices_S96x8704_o0_2_S96x8702 : S96x8704.Slices ![0, 2] S96x8702
  slices_S96x8704_o0_0_S96x2 : S96x8704.Slices ![0, 0] S96x2
  concatenates_S96x8702_S96x2_S96x8704_d1 : Shape.Concatenates [S96x8702, S96x2] S96x8704 1
  concatenates_S96x8192_S96x8192_S96x8192_S96x8192_S96x8192_S96x8192_S96x8192_S96x8192_S96x8192_S864x8192_d0 : Shape.Concatenates [S96x8192, S96x8192, S96x8192, S96x8192, S96x8192, S96x8192, S96x8192, S96x8192, S96x8192] S864x8192 0
  shapeCasts_S96x8192_S96x32x256 : S96x8192.ShapeCasts S96x32x256
  slices_S96x32x256_o0_0_0_S96x32x222 : S96x32x256.Slices ![0, 0, 0] S96x32x222
  inb_S1x96x32x222_S1x96x32x222_0_0_0_0 : ∀ a, (![0, 0, 0, 0] : Fin 4 → Nat) a + S1x96x32x222.size a ≤ S1x96x32x222.size a
  h_S1x96x32x222 : 0 < S1x96x32x222.numel
  shapeCasts_S1x96x32x222_S96x32x222 : S1x96x32x222.ShapeCasts S96x32x222
  shapeCasts_S96x32x222_S1x96x32x222 : S96x32x222.ShapeCasts S1x96x32x222
  dot_S96x864_S864x8192_S96x8192_1_0_0_1_n_n_wf : DotDims.WF S96x864 S864x8192 S96x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S96x864.size a ≤ S96x864.size a
  hwx0_0 : ∀ i : grid0.Coords, EltTy.bits .f32 = 32 ∨ (Rect.block (s := S96x864) S96x864.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x864.size a ≤ S96x864.size a
  hwx0_1 : ∀ i : grid0.Coords, EltTy.bits .f32 = 32 ∨ (Rect.block (s := S96x864) S96x864.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x96x32x224.size a ≤ S2x96x224x224.size a
  hwx0_2 : ∀ i : grid0.Coords, EltTy.bits .f32 = 32 ∨ (Rect.block (s := S2x96x224x224) S1x96x32x224.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x96x8x224.size a ≤ S2x96x224x224.size a
  hwx0_3 : ∀ i : grid0.Coords, EltTy.bits .f32 = 32 ∨ (Rect.block (s := S2x96x224x224) S1x96x8x224.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x96x32x222.size a < S2x96x222x222.size a
  hwx0_4 : ∀ i : grid0.Coords, EltTy.bits .f32 = 32 ∨ (Rect.unit (s := S2x96x222x222) (fun a => cc0_transform_4 i a * S1x96x32x222.size a) (fun a => (Pipeline.Clip.of (cc0_transform_4 i a) (S1x96x32x222.size a) (S2x96x222x222.size a)).extent (S1x96x32x222.size a)) fun a => Pipeline.Clip.inb (Pipeline.Clip.ok_of (hstart0_4 i a))).WholeWords (EltTy.packing .f32)
  hwxs0_4 : ∀ i : grid0.Coords, EltTy.bits .f32 = 32 ∨ (Rect.unit (s := S1x96x32x222) (fun _ => 0) (fun a => (Pipeline.Clip.of (cc0_transform_4 i a) (S1x96x32x222.size a) (S2x96x222x222.size a)).extent (S1x96x32x222.size a)) fun a => (Nat.zero_add _).trans_le (Pipeline.Clip.extent_le (Pipeline.Clip.ok_of (hstart0_4 i a)))).WholeWords (EltTy.packing .f32)

variable [Facts₀]

def dot_S96x864_S864x8192_S96x8192_1_0_0_1_n_n : DotDims S96x864 S864x8192 S96x8192 where
  lhsContracting := [1]
  rhsContracting := [0]
  lhsNonContracting := [0]
  rhsNonContracting := [1]
  lhsBatch := []
  rhsBatch := []
  wf := dot_S96x864_S864x8192_S96x8192_1_0_0_1_n_n_wf

abbrev win0_0 : Pipeline.Window sig grid0 :=
  Pipeline.Window.ofSpec (Memref.whole main_arg1) S96x864.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x864.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x96x32x224.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x96x8x224.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S1x96x32x222.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x96x224x224 : Shape := ⟨4, ![2, 96, 224, 224]⟩
abbrev S96x864 : Shape := ⟨2, ![96, 864]⟩
abbrev S2x96x222x222 : Shape := ⟨4, ![2, 96, 222, 222]⟩
abbrev S2x864x222x222 : Shape := ⟨4, ![2, 864, 222, 222]⟩
abbrev S864x2x222x222 : Shape := ⟨4, ![864, 2, 222, 222]⟩
abbrev S864x98568 : Shape := ⟨2, ![864, 98568]⟩
abbrev S96x98568 : Shape := ⟨2, ![96, 98568]⟩
abbrev S96x2x222x222 : Shape := ⟨4, ![96, 2, 222, 222]⟩

abbrev nBuf : Space → Nat
  | .hbm => 19
  | .vmem => 0
  | .smem => 0
  | _ => 0

abbrev bufTy : (tb : Table) → Fin (tcTables nBuf tb) → BufTy
  | .hbm, ⟨0, _⟩ => ⟨S2x96x224x224, .f32⟩
  | .hbm, ⟨1, _⟩ => ⟨S96x864, .f32⟩
  | .hbm, ⟨2, _⟩ => ⟨S96x864, .f32⟩
  | .hbm, ⟨3, _⟩ => ⟨S2x96x222x222, .f32⟩
  | .hbm, ⟨4, _⟩ => ⟨S2x96x222x222, .f32⟩
  | .hbm, ⟨5, _⟩ => ⟨S2x96x222x222, .f32⟩
  | .hbm, ⟨6, _⟩ => ⟨S2x96x222x222, .f32⟩
  | .hbm, ⟨7, _⟩ => ⟨S2x96x222x222, .f32⟩
  | .hbm, ⟨8, _⟩ => ⟨S2x96x222x222, .f32⟩
  | .hbm, ⟨9, _⟩ => ⟨S2x96x222x222, .f32⟩
  | .hbm, ⟨10, _⟩ => ⟨S2x96x222x222, .f32⟩
  | .hbm, ⟨11, _⟩ => ⟨S2x96x222x222, .f32⟩
  | .hbm, ⟨12, _⟩ => ⟨S2x864x222x222, .f32⟩
  | .hbm, ⟨13, _⟩ => ⟨S864x2x222x222, .f32⟩
  | .hbm, ⟨14, _⟩ => ⟨S864x98568, .f32⟩
  | .hbm, ⟨15, _⟩ => ⟨S96x864, .f32⟩
  | .hbm, ⟨16, _⟩ => ⟨S96x98568, .f32⟩
  | .hbm, ⟨17, _⟩ => ⟨S96x2x222x222, .f32⟩
  | .hbm, ⟨18, _⟩ => ⟨S2x96x222x222, .f32⟩
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]

class Facts₀ : Prop where
  slices_S2x96x224x224_S2x96x222x222_0_0_0_0 : S2x96x224x224.Slices ![0, 0, 0, 0] S2x96x222x222
  slices_S2x96x224x224_S2x96x222x222_0_0_0_1 : S2x96x224x224.Slices ![0, 0, 0, 1] S2x96x222x222
  slices_S2x96x224x224_S2x96x222x222_0_0_0_2 : S2x96x224x224.Slices ![0, 0, 0, 2] S2x96x222x222
  slices_S2x96x224x224_S2x96x222x222_0_0_1_0 : S2x96x224x224.Slices ![0, 0, 1, 0] S2x96x222x222
  slices_S2x96x224x224_S2x96x222x222_0_0_1_1 : S2x96x224x224.Slices ![0, 0, 1, 1] S2x96x222x222
  slices_S2x96x224x224_S2x96x222x222_0_0_1_2 : S2x96x224x224.Slices ![0, 0, 1, 2] S2x96x222x222
  slices_S2x96x224x224_S2x96x222x222_0_0_2_0 : S2x96x224x224.Slices ![0, 0, 2, 0] S2x96x222x222
  slices_S2x96x224x224_S2x96x222x222_0_0_2_1 : S2x96x224x224.Slices ![0, 0, 2, 1] S2x96x222x222
  slices_S2x96x224x224_S2x96x222x222_0_0_2_2 : S2x96x224x224.Slices ![0, 0, 2, 2] S2x96x222x222
  concatenates_S2x96x222x222_S2x96x222x222_S2x96x222x222_S2x96x222x222_S2x96x222x222_S2x96x222x222_S2x96x222x222_S2x96x222x222_S2x96x222x222_S2x864x222x222_d1 : Shape.Concatenates [S2x96x222x222, S2x96x222x222, S2x96x222x222, S2x96x222x222, S2x96x222x222, S2x96x222x222, S2x96x222x222, S2x96x222x222, S2x96x222x222] S2x864x222x222 1
  transposes_S2x864x222x222_S864x2x222x222_1_0_2_3 : S2x864x222x222.Transposes [1, 0, 2, 3] S864x2x222x222
  shapeCasts_S864x2x222x222_S864x98568 : S864x2x222x222.ShapeCasts S864x98568
  shapeCasts_S96x98568_S96x2x222x222 : S96x98568.ShapeCasts S96x2x222x222
  transposes_S96x2x222x222_S2x96x222x222_1_0_2_3 : S96x2x222x222.Transposes [1, 0, 2, 3] S2x96x222x222
  dot_S96x864_S864x98568_S96x98568_1_0_0_1_n_n_wf : DotDims.WF S96x864 S864x98568 S96x98568 [1] [0] [0] [1] [] []

variable [Facts₀]

def dot_S96x864_S864x98568_S96x98568_1_0_0_1_n_n : DotDims S96x864 S864x98568 S96x98568 where
  lhsContracting := [1]
  rhsContracting := [0]
  lhsNonContracting := [0]
  rhsNonContracting := [1]
  lhsBatch := []
  rhsBatch := []
  wf := dot_S96x864_S864x98568_S96x98568_1_0_0_1_n_n_wf

class Facts : Prop extends Facts₀ where

variable [Facts]
-- ==== Proof.BitsRun.lean ====
/-
  The run of the convolution kernel, for any float instance.

  The region has one grid of 2 x 7 points. At point (b, i) the pipeline hands the body five staging buffers: the two
  weight arrays whole, rows 32 i .. 32 i + 31 of image b of the input (the main block), the 8 rows that start at row
  8 * min (4 i + 4, 27) of the same image (the halo block), and the result's block of 32 rows, whose last block
  (i = 6) overhangs the 222-row result by two rows and is written back cut to the rows inside it. The main and the
  halo window read ONE array, so that array's ownership is split in two halves, one per window; nothing writes it.

  The body loads the four input buffers whole, loads the result's buffer (a value it never uses), and stores one
  payload over the whole result buffer. So after the body each input buffer holds what it held and the result's buffer
  holds the payload of the four input blocks: the proof data below. The body obligation is that statement at every
  point; the launch theorem for windows sharing an array then gives the run, with every array of the region after the
  run at the contents the library computes from the proof data (the inputs unchanged, the result overwritten block by
  block by the payloads' rows inside the array).
-/
import proofs.«113754_g33251636806221_cont_8to1_b_887_22_alg».proof.Proof.Gen.Kernel.Launch
import proofs.«113754_g33251636806221_cont_8to1_b_887_22_alg».proof.Proof.Gen.Kernel.Skeleton
import proofs.«113754_g33251636806221_cont_8to1_b_887_22_alg».proof.Proof.Gen.Kernel.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.Kernel.Conv

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The arrays and their blocks -/

/-- The TensorCore's buffers when the region is entered: as launched (the region is all of the program). -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every one the whole buffer -/

abbrev rW : Rect S96x864 := Rect.unit (s := S96x864) ![0, 0] S96x864.size inb_S96x864_S96x864_0_0
abbrev rM : Rect S1x96x32x224 := Rect.unit (s := S1x96x32x224) ![0, 0, 0, 0] S1x96x32x224.size inb_S1x96x32x224_S1x96x32x224_0_0_0_0
abbrev rH : Rect S1x96x8x224 := Rect.unit (s := S1x96x8x224) ![0, 0, 0, 0] S1x96x8x224.size inb_S1x96x8x224_S1x96x8x224_0_0_0_0
abbrev rO : Rect S1x96x32x222 := Rect.unit (s := S1x96x32x222) ![0, 0, 0, 0] S1x96x32x222.size inb_S1x96x32x222_S1x96x32x222_0_0_0_0

theorem hz2 : (![0, 0] : Fin 2 → Nat) = fun _ => 0 := funext fun a => by fin_cases a <;> rfl
theorem hz4 : (![0, 0, 0, 0] : Fin 4 → Nat) = fun _ => 0 := funext fun a => by fin_cases a <;> rfl

/-- What the body leaves in the result's buffer, from the four input buffers' contents: its one store. -/
def out4 (x0 x1 : Vec F S96x864 .f32) (x2 : Vec F S1x96x32x224 .f32) (x3 : Vec F S1x96x8x224 .f32) : Vec F S1x96x32x222 .f32 :=
  View.canon [⟨rO, k0_pay1 (View.ld x0 rW) (View.ld x1 rW) (View.ld x2 rM) (View.ld x3 rH)⟩]

/-- The store is whole and the loads are whole: the result's buffer holds the payload of the buffers' contents. -/
theorem out4_eq (x0 x1 : Vec F S96x864 .f32) (x2 : Vec F S1x96x32x224 .f32) (x3 : Vec F S1x96x8x224 .f32) :
    out4 x0 x1 x2 x3 = k0_pay1 x0 x1 x2 x3 := by
  unfold out4
  rw [View.canon_unit_zero hz4, View.ld_unit_zero (S := S96x864) hz2, View.ld_unit_zero (S := S96x864) hz2,
    View.ld_unit_zero (S := S1x96x32x224) hz4, View.ld_unit_zero (S := S1x96x8x224) hz4]

theorem cover4 (p0 : Vec F S1x96x32x222 .f32) (y : S1x96x32x222.Idx) :
    ∃ pc ∈ ([⟨rO, p0⟩] : List (View.Piece (Elt F) S1x96x32x222 .f32)), y ∈ pc.1.set :=
  ⟨_, List.mem_singleton_self _, View.mem_set_unit_zero hz4 inb_S1x96x32x222_S1x96x32x222_0_0_0_0 y⟩

/-! ## The body's triple -/

set_option maxHeartbeats 1000000 in
/-- The body on whole staging memrefs, the inputs' at contents x0 .. x3 and the result's at anything, runs to the
    continuation holding the inputs' as they were and the result's at out4 of them. -/
theorem sound_kernel (c : Dev nD) (E : Set ℕ) (i : grid0.Coords)
    (arg2 : Memref sig .tc .vmem S96x864 .f32) (harg2 : arg2.IsWhole) (arg3 : Memref sig .tc .vmem S96x864 .f32) (harg3 : arg3.IsWhole)
    (arg4 : Memref sig .tc .vmem S1x96x32x224 .f32) (harg4 : arg4.IsWhole) (arg5 : Memref sig .tc .vmem S1x96x8x224 .f32) (harg5 : arg5.IsWhole)
    (arg6 : Memref sig .tc .vmem S1x96x32x222 .f32) (harg6 : arg6.IsWhole)
    (x0 x1 : Vec F S96x864 .f32) (x2 : Vec F S1x96x32x224 .f32) (x3 : Vec F S1x96x8x224 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare (out4 x0 x1 x2 x3)) -∗ K ⟨⟩))
      ⊢ wp frame (wpE (defs₀ (F := F)) Variants.none c none) E (cc0__conv_kernel i arg2 harg2 arg3 harg3 arg4 harg4 arg5 harg5 arg6 harg6) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The proof data -/

/-- The proof data of the one pipeline: the arrays as launched; after the body at point t each input's buffer at its
    block and the result's at the payload of the four input blocks; no invariant; nothing owed; the two weight arrays
    held whole, the input array's two windows at one half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := iprop(emp)
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (iblk m c 0 t) (iblk m c 1 t) (iblk m c 2 t) (iblk m c 3 t) := by dsimp only [dats]

/-- Each input's current staging buffer holds its block at every point, fetched there or not: unfetched, the block
    index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- The result's buffer is fresh at every point: the first, or one after a write-back (every point writes back). -/
theorem before0_4 (c : Dev nD) (t : Fin cfg0.N) (d) : (dats m 0 c).before 4 t d = d :=
  (dats m 0 c).before_out_reset 4 rfl t
    (by by_cases ht : t.val = 0
        · exact .inl ht
        · exact .inr ⟨ht, flush0_4 _⟩) d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the result's window is cut at the array's end, so its buffer is stated on the rows the
    write-back moves only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t)))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists ((dats m 0 c).after 4 t)
  rw [Window.fill_cut, after0_4]
  iexact H4

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The arrays at entry: the input array's ownership, one half per window -/

/-- Buffer b held whole, at share q, at its launch contents. -/
def held (c : Dev nD) (q : PosShare TreeShare) (b : Ref sig .tc) : sProp 𝕄 :=
  ((c : Thread nD τ).loc b) ↦{q} V m c b

/-- The buffers behind the five windows' arrays are four: the two weight arrays, the input array, the result. -/
theorem arrBufs_eq (c : Dev nD) :
    (Pipeline.arrBufs spec0 c (V m c) : sProp 𝕄)
      = iprop(held m c fullShare main_arg1 ∗ held m c fullShare main_arg2 ∗ held m c fullShare main_arg0 ∗ held m c fullShare main_v0) :=
  bigSep_eq_bigSepL_of_eq [main_arg1, main_arg2, main_arg0, main_v0] (by decide) (by decide) (held m c fullShare)

/-- The share each window's array is held at: the result's outright, each input's as the proof data says. -/
theorem share_0 (c : Dev nD) : (dats m 0 c).share 0 = fullShare := by
  unfold Dat.share; rw [if_neg (by decide)]; dsimp only [dats]
theorem share_1 (c : Dev nD) : (dats m 0 c).share 1 = fullShare := by
  unfold Dat.share; rw [if_neg (by decide)]; dsimp only [dats]
theorem share_2 (c : Dev nD) : (dats m 0 c).share 2 = fullShare.left := by
  unfold Dat.share; rw [if_neg (by decide)]; dsimp only [dats]
theorem share_3 (c : Dev nD) : (dats m 0 c).share 3 = fullShare.right := by
  unfold Dat.share; rw [if_neg (by decide)]; dsimp only [dats]
theorem share_4 (c : Dev nD) : (dats m 0 c).share 4 = fullShare := by
  unfold Dat.share; rw [if_pos (by decide)]

/-- Before any write-back an array holds its launch contents. -/
theorem arrAt_zero (c : Dev nD) (w : Fin cfg0.W) : (dats m 0 c).arrAt w 0 = V m c (Pipeline.arrRef spec0 w) :=
  A_eq m c w

/-- The five windows' arrays at entry, window by window. -/
theorem arrays_eq (c : Dev nD) :
    ((dats m 0 c).arrays ((dats m 0 c).arrAt · 0) : sProp 𝕄)
      = iprop(held m c fullShare main_arg1 ∗ held m c fullShare main_arg2 ∗ held m c fullShare.left main_arg0
          ∗ held m c fullShare.right main_arg0 ∗ held m c fullShare main_v0) := by
  unfold Dat.arrays
  rw [bigSep_W0]
  simp only [View.set_whole]
  rw [share_0, share_1, share_2, share_3, share_4, arrAt_zero, arrAt_zero, arrAt_zero, arrAt_zero, arrAt_zero]
  rfl

/-- A buffer held at the full share is the same buffer held at the two halves of the share. -/
theorem halves (c : Dev nD) (b : Ref sig .tc) :
    held m c fullShare b ⊢ iprop(held m c fullShare.left b ∗ held m c fullShare.right b) :=
  (pointsTo_share (PosShare.mem_left_op_right fullShare)).1

/-- The four buffers, each held whole at its launch contents, are the five windows' arrays at entry: the two weight
    arrays and the result at the full share, the input array split into its two halves, one for the main window and one
    for the halo window. -/
theorem hsplit (c : Dev nD) :
    (Pipeline.arrBufs spec0 c (V m c) : sProp 𝕄) ⊢ (dats m 0 c).arrays ((dats m 0 c).arrAt · 0) := by
  rw [arrBufs_eq, arrays_eq]
  iintro ⟨H1, H2, H0, Hv⟩
  ihave H0' := (halves m c main_arg0) $$ H0
  icases H0' with ⟨H0l, H0r⟩
  isplitl [H1]; · iexact H1
  isplitl [H2]; · iexact H2
  isplitl [H0l]; · iexact H0l
  isplitl [H0r]; · iexact H0r
  iexact Hv
/-! ## The launch -/

/-- The launch element: every staging cell's owner at round 0 and a duty token for every transfer the pipeline issues. -/
def u₀ : UR sig nD τ := initOf (Pipeline.cells cfgs cellOf_inj) (Pipeline.launchToks cfgs cellOf_inj)

/-- An array's contents after the run, as the library computes them from the proof data. -/
def finalA (c : Dev nD) (w : Fin cfg0.W) : Buf (Elt F) ((cfg0.win w).arr.view.loc (c : Thread nD τ)) :=
  (dats m 0 c).arrAt w cfg0.N

/-- The run's post: every array of the region holds the computed contents. -/
def QC : PUnit × MemSt nD τ sig (Elt F) → Prop := fun r =>
  ∀ (c : Dev nD) (w : Fin cfg0.W), r.2.mem ((cfg0.win w).arr.view.loc (c : Thread nD τ)) = finalA m c w

set_option backward.isDefEq.respectTransparency.types false in
/-- For any float values, from any memory whose semaphore counters are zero: every weakly fair execution of the program
    terminates, nothing faulting, and every final state has each array of the region at the computed contents. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- An input array ends as launched: nothing is ever written back to it. -/
theorem finalA_in (c : Dev nD) (w : Fin cfg0.W) (h : (cfg0.win w).isOut = false) :
    finalA m c w = V m c (Pipeline.arrRef spec0 w) :=
  ((dats m 0 c).arrAt_in w h _).trans (A_eq m c w)

/-- The frame: the program runs to the end, faults nowhere, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c (2 : Fin 5)).trans (finalA_in m c 2 rfl), (h c (0 : Fin 5)).trans (finalA_in m c 0 rfl),
      (h c (1 : Fin 5)).trans (finalA_in m c 1 rfl)⟩)
    (run_main m ρ)

end Cert.Kernel.Conv

end
-- ==== Proof.IdealRun.lean ====
/-
  The run of the convolution kernel, for any float instance.

  The region has one grid of 2 x 7 points. At point (b, i) the pipeline hands the body five staging buffers: the two
  weight arrays whole, rows 32 i .. 32 i + 31 of image b of the input (the main block), the 8 rows that start at row
  8 * min (4 i + 4, 27) of the same image (the halo block), and the result's block of 32 rows, whose last block
  (i = 6) overhangs the 222-row result by two rows and is written back cut to the rows inside it. The main and the
  halo window read ONE array, so that array's ownership is split in two halves, one per window; nothing writes it.

  The body loads the four input buffers whole, loads the result's buffer (a value it never uses), and stores one
  payload over the whole result buffer. So after the body each input buffer holds what it held and the result's buffer
  holds the payload of the four input blocks: the proof data below. The body obligation is that statement at every
  point; the launch theorem for windows sharing an array then gives the run, with every array of the region after the
  run at the contents the library computes from the proof data (the inputs unchanged, the result overwritten block by
  block by the payloads' rows inside the array).
-/
import proofs.«113754_g33251636806221_cont_8to1_b_887_22_alg».proof.Proof.Gen.KernelIdeal.Launch
import proofs.«113754_g33251636806221_cont_8to1_b_887_22_alg».proof.Proof.Gen.KernelIdeal.Skeleton
import proofs.«113754_g33251636806221_cont_8to1_b_887_22_alg».proof.Proof.Gen.KernelIdeal.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.KernelIdeal.Conv

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The arrays and their blocks -/

/-- The TensorCore's buffers when the region is entered: as launched (the region is all of the program). -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every one the whole buffer -/

abbrev rW : Rect S96x864 := Rect.unit (s := S96x864) ![0, 0] S96x864.size inb_S96x864_S96x864_0_0
abbrev rM : Rect S1x96x32x224 := Rect.unit (s := S1x96x32x224) ![0, 0, 0, 0] S1x96x32x224.size inb_S1x96x32x224_S1x96x32x224_0_0_0_0
abbrev rH : Rect S1x96x8x224 := Rect.unit (s := S1x96x8x224) ![0, 0, 0, 0] S1x96x8x224.size inb_S1x96x8x224_S1x96x8x224_0_0_0_0
abbrev rO : Rect S1x96x32x222 := Rect.unit (s := S1x96x32x222) ![0, 0, 0, 0] S1x96x32x222.size inb_S1x96x32x222_S1x96x32x222_0_0_0_0

theorem hz2 : (![0, 0] : Fin 2 → Nat) = fun _ => 0 := funext fun a => by fin_cases a <;> rfl
theorem hz4 : (![0, 0, 0, 0] : Fin 4 → Nat) = fun _ => 0 := funext fun a => by fin_cases a <;> rfl

/-- What the body leaves in the result's buffer, from the four input buffers' contents: its one store. -/
def out4 (x0 x1 : Vec F S96x864 .f32) (x2 : Vec F S1x96x32x224 .f32) (x3 : Vec F S1x96x8x224 .f32) : Vec F S1x96x32x222 .f32 :=
  View.canon [⟨rO, k0_pay1 (View.ld x0 rW) (View.ld x1 rW) (View.ld x2 rM) (View.ld x3 rH)⟩]

/-- The store is whole and the loads are whole: the result's buffer holds the payload of the buffers' contents. -/
theorem out4_eq (x0 x1 : Vec F S96x864 .f32) (x2 : Vec F S1x96x32x224 .f32) (x3 : Vec F S1x96x8x224 .f32) :
    out4 x0 x1 x2 x3 = k0_pay1 x0 x1 x2 x3 := by
  unfold out4
  rw [View.canon_unit_zero hz4, View.ld_unit_zero (S := S96x864) hz2, View.ld_unit_zero (S := S96x864) hz2,
    View.ld_unit_zero (S := S1x96x32x224) hz4, View.ld_unit_zero (S := S1x96x8x224) hz4]

theorem cover4 (p0 : Vec F S1x96x32x222 .f32) (y : S1x96x32x222.Idx) :
    ∃ pc ∈ ([⟨rO, p0⟩] : List (View.Piece (Elt F) S1x96x32x222 .f32)), y ∈ pc.1.set :=
  ⟨_, List.mem_singleton_self _, View.mem_set_unit_zero hz4 inb_S1x96x32x222_S1x96x32x222_0_0_0_0 y⟩

/-! ## The body's triple -/

set_option maxHeartbeats 1000000 in
/-- The body on whole staging memrefs, the inputs' at contents x0 .. x3 and the result's at anything, runs to the
    continuation holding the inputs' as they were and the result's at out4 of them. -/
theorem sound_kernel (c : Dev nD) (E : Set ℕ) (i : grid0.Coords)
    (arg2 : Memref sig .tc .vmem S96x864 .f32) (harg2 : arg2.IsWhole) (arg3 : Memref sig .tc .vmem S96x864 .f32) (harg3 : arg3.IsWhole)
    (arg4 : Memref sig .tc .vmem S1x96x32x224 .f32) (harg4 : arg4.IsWhole) (arg5 : Memref sig .tc .vmem S1x96x8x224 .f32) (harg5 : arg5.IsWhole)
    (arg6 : Memref sig .tc .vmem S1x96x32x222 .f32) (harg6 : arg6.IsWhole)
    (x0 x1 : Vec F S96x864 .f32) (x2 : Vec F S1x96x32x224 .f32) (x3 : Vec F S1x96x8x224 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
              ∗ owns (c : Thread nD τ) arg4 fullShare x2 ∗ owns (c : Thread nD τ) arg5 fullShare x3
              ∗ owns (c : Thread nD τ) arg6 fullShare (out4 x0 x1 x2 x3)) -∗ K ⟨⟩))
      ⊢ wp frame (wpE (defs₀ (F := F)) Variants.none c none) E (cc0__conv_kernel i arg2 harg2 arg3 harg3 arg4 harg4 arg5 harg5 arg6 harg6) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The proof data -/

/-- The proof data of the one pipeline: the arrays as launched; after the body at point t each input's buffer at its
    block and the result's at the payload of the four input blocks; no invariant; nothing owed; the two weight arrays
    held whole, the input array's two windows at one half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := iprop(emp)
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (iblk m c 0 t) (iblk m c 1 t) (iblk m c 2 t) (iblk m c 3 t) := by dsimp only [dats]

/-- Each input's current staging buffer holds its block at every point, fetched there or not: unfetched, the block
    index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- The result's buffer is fresh at every point: the first, or one after a write-back (every point writes back). -/
theorem before0_4 (c : Dev nD) (t : Fin cfg0.N) (d) : (dats m 0 c).before 4 t d = d :=
  (dats m 0 c).before_out_reset 4 rfl t
    (by by_cases ht : t.val = 0
        · exact .inl ht
        · exact .inr ⟨ht, flush0_4 _⟩) d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the result's window is cut at the array's end, so its buffer is stated on the rows the
    write-back moves only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t)))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists ((dats m 0 c).after 4 t)
  rw [Window.fill_cut, after0_4]
  iexact H4

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The arrays at entry: the input array's ownership, one half per window -/

/-- Buffer b held whole, at share q, at its launch contents. -/
def held (c : Dev nD) (q : PosShare TreeShare) (b : Ref sig .tc) : sProp 𝕄 :=
  ((c : Thread nD τ).loc b) ↦{q} V m c b

/-- The buffers behind the five windows' arrays are four: the two weight arrays, the input array, the result. -/
theorem arrBufs_eq (c : Dev nD) :
    (Pipeline.arrBufs spec0 c (V m c) : sProp 𝕄)
      = iprop(held m c fullShare main_arg1 ∗ held m c fullShare main_arg2 ∗ held m c fullShare main_arg0 ∗ held m c fullShare main_v0) :=
  bigSep_eq_bigSepL_of_eq [main_arg1, main_arg2, main_arg0, main_v0] (by decide) (by decide) (held m c fullShare)

/-- The share each window's array is held at: the result's outright, each input's as the proof data says. -/
theorem share_0 (c : Dev nD) : (dats m 0 c).share 0 = fullShare := by
  unfold Dat.share; rw [if_neg (by decide)]; dsimp only [dats]
theorem share_1 (c : Dev nD) : (dats m 0 c).share 1 = fullShare := by
  unfold Dat.share; rw [if_neg (by decide)]; dsimp only [dats]
theorem share_2 (c : Dev nD) : (dats m 0 c).share 2 = fullShare.left := by
  unfold Dat.share; rw [if_neg (by decide)]; dsimp only [dats]
theorem share_3 (c : Dev nD) : (dats m 0 c).share 3 = fullShare.right := by
  unfold Dat.share; rw [if_neg (by decide)]; dsimp only [dats]
theorem share_4 (c : Dev nD) : (dats m 0 c).share 4 = fullShare := by
  unfold Dat.share; rw [if_pos (by decide)]

/-- Before any write-back an array holds its launch contents. -/
theorem arrAt_zero (c : Dev nD) (w : Fin cfg0.W) : (dats m 0 c).arrAt w 0 = V m c (Pipeline.arrRef spec0 w) :=
  A_eq m c w

/-- The five windows' arrays at entry, window by window. -/
theorem arrays_eq (c : Dev nD) :
    ((dats m 0 c).arrays ((dats m 0 c).arrAt · 0) : sProp 𝕄)
      = iprop(held m c fullShare main_arg1 ∗ held m c fullShare main_arg2 ∗ held m c fullShare.left main_arg0
          ∗ held m c fullShare.right main_arg0 ∗ held m c fullShare main_v0) := by
  unfold Dat.arrays
  rw [bigSep_W0]
  simp only [View.set_whole]
  rw [share_0, share_1, share_2, share_3, share_4, arrAt_zero, arrAt_zero, arrAt_zero, arrAt_zero, arrAt_zero]
  rfl

/-- A buffer held at the full share is the same buffer held at the two halves of the share. -/
theorem halves (c : Dev nD) (b : Ref sig .tc) :
    held m c fullShare b ⊢ iprop(held m c fullShare.left b ∗ held m c fullShare.right b) :=
  (pointsTo_share (PosShare.mem_left_op_right fullShare)).1

/-- The four buffers, each held whole at its launch contents, are the five windows' arrays at entry: the two weight
    arrays and the result at the full share, the input array split into its two halves, one for the main window and one
    for the halo window. -/
theorem hsplit (c : Dev nD) :
    (Pipeline.arrBufs spec0 c (V m c) : sProp 𝕄) ⊢ (dats m 0 c).arrays ((dats m 0 c).arrAt · 0) := by
  rw [arrBufs_eq, arrays_eq]
  iintro ⟨H1, H2, H0, Hv⟩
  ihave H0' := (halves m c main_arg0) $$ H0
  icases H0' with ⟨H0l, H0r⟩
  isplitl [H1]; · iexact H1
  isplitl [H2]; · iexact H2
  isplitl [H0l]; · iexact H0l
  isplitl [H0r]; · iexact H0r
  iexact Hv
/-! ## The launch -/

/-- The launch element: every staging cell's owner at round 0 and a duty token for every transfer the pipeline issues. -/
def u₀ : UR sig nD τ := initOf (Pipeline.cells cfgs cellOf_inj) (Pipeline.launchToks cfgs cellOf_inj)

/-- An array's contents after the run, as the library computes them from the proof data. -/
def finalA (c : Dev nD) (w : Fin cfg0.W) : Buf (Elt F) ((cfg0.win w).arr.view.loc (c : Thread nD τ)) :=
  (dats m 0 c).arrAt w cfg0.N

/-- The run's post: every array of the region holds the computed contents. -/
def QC : PUnit × MemSt nD τ sig (Elt F) → Prop := fun r =>
  ∀ (c : Dev nD) (w : Fin cfg0.W), r.2.mem ((cfg0.win w).arr.view.loc (c : Thread nD τ)) = finalA m c w

set_option backward.isDefEq.respectTransparency.types false in
/-- For any float values, from any memory whose semaphore counters are zero: every weakly fair execution of the program
    terminates, nothing faulting, and every final state has each array of the region at the computed contents. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- An input array ends as launched: nothing is ever written back to it. -/
theorem finalA_in (c : Dev nD) (w : Fin cfg0.W) (h : (cfg0.win w).isOut = false) :
    finalA m c w = V m c (Pipeline.arrRef spec0 w) :=
  ((dats m 0 c).arrAt_in w h _).trans (A_eq m c w)

/-- The frame: the program runs to the end, faults nowhere, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c (2 : Fin 5)).trans (finalA_in m c 2 rfl), (h c (0 : Fin 5)).trans (finalA_in m c 0 rfl),
      (h c (1 : Fin 5)).trans (finalA_in m c 1 rfl)⟩)
    (run_main m ρ)

end Cert.KernelIdeal.Conv

end
-- ==== Proof.ConvSpec.lean ====
/-
  The specification: a 3x3 valid convolution of x : [2, 96, 224, 224] with the masked weight kv * km : [96, 864],
  the weight's column k = (3 i + j) * 96 + c standing for input channel c = k % 96 and tap (i, j) = (k / 288, k / 96 % 3):

    conv x kv km (b, f, r, s) = sum over k < 864 of (kv (f, k) * km (f, k)) * x (b, k % 96, r + k / 288, s + k / 96 % 3).

  Both programs compute this sum on the extended reals; the sum is finite and addition there is commutative and
  associative, so no order of summation matters and no finiteness of the inputs is used.
-/
import Idealize.ShloMosaic.PureOps.Ideal
import Idealize.ShloMosaic.Lib.ValueIdx

noncomputable section

open scoped BigOperators

namespace Cert.ConvSpec

open Idealize.ShloMosaic Idealize.ShloMosaic.ValueIdx

/-- The input's shape, the weight's and the result's. -/
abbrev SX : Shape := ⟨4, ![2, 96, 224, 224]⟩
abbrev SW : Shape := ⟨2, ![96, 864]⟩
abbrev SO : Shape := ⟨4, ![2, 96, 222, 222]⟩

/-- The input channel of weight column k. -/
def chan (k : Fin 864) : Fin 96 := ⟨k.val % 96, Nat.mod_lt _ (by decide)⟩
/-- The input row that weight column k reads for output row r: r plus the tap's row offset k / 288. -/
def rowOf (r : Fin 222) (k : Fin 864) : Fin 224 := ⟨r.val + k.val / 288, by have := r.isLt; have := k.isLt; omega⟩
/-- The input column that weight column k reads for output column s: s plus the tap's column offset k / 96 % 3. -/
def colOf (s : Fin 222) (k : Fin 864) : Fin 224 := ⟨s.val + k.val / 96 % 3, by have := s.isLt; have := k.isLt; omega⟩

/-- The input entry that weight column k multiplies at output position (b, ·, r, s). -/
def tap (b : Fin 2) (r s : Fin 222) (k : Fin 864) : SX.Idx := ix4 b (chan k) (rowOf r k) (colOf s k)

/-- The convolution, entry by entry. -/
def conv (x : FVec Ideal SX .f32) (kv km : FVec Ideal SW .f32) : FVec Ideal SO .f32 :=
  fun i => ∑ k : Fin 864, (kv (ix2 (i 1) k) * km (ix2 (i 1) k)) * x (tap (i 0) (i 2) (i 3) k)

/-! ## One grid point's view of the input

A grid point computes 32 output rows from 34 input rows: the 32 rows of its main block followed by the first two
rows of its halo block (the block of 8 rows that starts where the main block ends). -/

/-- The shapes of a point's main block, halo block and output block. -/
abbrev SMain : Shape := ⟨4, ![1, 96, 32, 224]⟩
abbrev SHalo : Shape := ⟨4, ![1, 96, 8, 224]⟩
abbrev SOut : Shape := ⟨4, ![1, 96, 32, 222]⟩

/-- Row y < 34 of a point's input: row y of the main block when y < 32, row y - 32 of the halo block otherwise. -/
def slab (main : FVec Ideal SMain .f32) (halo : FVec Ideal SHalo .f32) (c : Fin 96) (y : Fin 34) (z : Fin 224) : EReal :=
  if h : y.val < 32 then main (ix4 (0 : Fin 1) c ⟨y.val, h⟩ z)
  else halo (ix4 (0 : Fin 1) c ⟨y.val - 32, by have := y.isLt; omega⟩ z)

/-- The slab row that weight column k reads for the block's output row rr: rr plus the tap's row offset. -/
def slabRow (rr : Fin 32) (k : Fin 864) : Fin 34 := ⟨rr.val + k.val / 288, by have := rr.isLt; have := k.isLt; omega⟩

/-- What a point stores at entry (f, rr, s) of its output block, as a function of the four blocks it loads. -/
def blockConv (kv km : FVec Ideal SW .f32) (main : FVec Ideal SMain .f32) (halo : FVec Ideal SHalo .f32)
    (f : Fin 96) (rr : Fin 32) (s : Fin 222) : EReal :=
  ∑ k : Fin 864, (kv (ix2 f k) * km (ix2 f k)) * slab main halo (chan k) (slabRow rr k) (colOf s k)

theorem conv_apply (x : FVec Ideal SX .f32) (kv km : FVec Ideal SW .f32) (b : Fin 2) (f : Fin 96) (r s : Fin 222) :
    conv x kv km (ix4 b f r s) = ∑ k : Fin 864, (kv (ix2 f k) * km (ix2 f k)) * x (tap b r s k) := rfl

end Cert.ConvSpec

end
-- ==== Proof.RefIsConv.lean ====
/-
  The reference program computes the convolution of the specification.

  The reference cuts the input x : [2, 96, 224, 224] nine ways — tap (i, j), i, j < 3, keeps rows i .. i + 221 and columns
  j .. j + 221 —, joins the nine [2, 96, 222, 222] pieces along the channel axis in the order q = 3 i + j, exchanges the
  first two axes, flattens the last three into one of length 2 * 222 * 222 = 98568, contracts the [864, 98568] array so
  obtained with the masked weight kv * km : [96, 864] over the 864 joined channels, splits the long axis back and
  exchanges the first two axes again.  Read at (b, f, r, s):

  * the two outer layout steps send (b, f, r, s) to row f and column (b * 222 + r) * 222 + s of the product;
  * the product there is the sum over k < 864 of (kv (f, k) * km (f, k)) times entry (k, (b * 222 + r) * 222 + s) of the
    flattened array, which is entry (b, k, r, s) of the joined array;
  * joined channel k lies in piece q = k / 96 at channel k % 96, and piece q = 3 i + j at (b, c, r, s) is
    x (b, c, r + i, s + j) with i = q / 3 = k / 288 and j = q % 3 = k / 96 % 3.

  So the entry is the sum over k of (kv (f, k) * km (f, k)) * x (b, k % 96, r + k / 288, s + k / 96 % 3): the
  specification's sum, term by term, in the same order.
-/
import proofs.«113754_g33251636806221_cont_8to1_b_887_22_alg».proof.Proof.Gen.ReferenceIdeal.Read
import proofs.«113754_g33251636806221_cont_8to1_b_887_22_alg».proof.Proof.ConvSpec

noncomputable section

open scoped BigOperators

namespace Cert.RefIsConv

open Cert.ReferenceIdeal Cert.ReferenceIdeal.Gen Cert.ReferenceIdeal.Read Idealize.ShloMosaic Idealize.ShloMosaic.ValueIdx Idealize.ShloMosaic.TcCoe Idealize.SL.Sem Idealize.ShloMosaic.StableHlo

/-! ## The joined array, piece by piece

Piece q occupies channels 96 q .. 96 q + 95 of the joined array: at joined channel k = 96 q + c it is read at channel c,
the other three coordinates unchanged. -/

theorem joined_piece0 (x : (⟨S2x96x224x224, .f32⟩ : BufTy).Contents (Elt Ideal)) (b : Fin 2) (k : Fin 864) (r s : Fin 222) (c : Fin 96)
    (hk : k.val = 0 + c.val) :
    val_main_v9 (F := Ideal) x (ix4 b k r s) = val_main_v0 (F := Ideal) x (ix4 b c r s) := by
  unfold val_main_v9
  exact concatenate_apply_piece (1 : Fin 4) _ _ (ix4 b k r s) 0 (by show (0 : Nat) < 9; omega) S2x96x222x222 (val_main_v0 (F := Ideal) x) rfl rfl 0 rfl
    (ix4 b c r s) (fun a ha => match a with | ⟨0, _⟩ => rfl | ⟨1, _⟩ => absurd rfl ha | ⟨2, _⟩ => rfl | ⟨3, _⟩ => rfl)
    (by show 0 + c.val = k.val; omega)

theorem joined_piece1 (x : (⟨S2x96x224x224, .f32⟩ : BufTy).Contents (Elt Ideal)) (b : Fin 2) (k : Fin 864) (r s : Fin 222) (c : Fin 96)
    (hk : k.val = 96 + c.val) :
    val_main_v9 (F := Ideal) x (ix4 b k r s) = val_main_v1 (F := Ideal) x (ix4 b c r s) := by
  unfold val_main_v9
  exact concatenate_apply_piece (1 : Fin 4) _ _ (ix4 b k r s) 1 (by show (1 : Nat) < 9; omega) S2x96x222x222 (val_main_v1 (F := Ideal) x) rfl rfl 96 rfl
    (ix4 b c r s) (fun a ha => match a with | ⟨0, _⟩ => rfl | ⟨1, _⟩ => absurd rfl ha | ⟨2, _⟩ => rfl | ⟨3, _⟩ => rfl)
    (by show 96 + c.val = k.val; omega)

theorem joined_piece2 (x : (⟨S2x96x224x224, .f32⟩ : BufTy).Contents (Elt Ideal)) (b : Fin 2) (k : Fin 864) (r s : Fin 222) (c : Fin 96)
    (hk : k.val = 192 + c.val) :
    val_main_v9 (F := Ideal) x (ix4 b k r s) = val_main_v2 (F := Ideal) x (ix4 b c r s) := by
  unfold val_main_v9
  exact concatenate_apply_piece (1 : Fin 4) _ _ (ix4 b k r s) 2 (by show (2 : Nat) < 9; omega) S2x96x222x222 (val_main_v2 (F := Ideal) x) rfl rfl 192 rfl
    (ix4 b c r s) (fun a ha => match a with | ⟨0, _⟩ => rfl | ⟨1, _⟩ => absurd rfl ha | ⟨2, _⟩ => rfl | ⟨3, _⟩ => rfl)
    (by show 192 + c.val = k.val; omega)

theorem joined_piece3 (x : (⟨S2x96x224x224, .f32⟩ : BufTy).Contents (Elt Ideal)) (b : Fin 2) (k : Fin 864) (r s : Fin 222) (c : Fin 96)
    (hk : k.val = 288 + c.val) :
    val_main_v9 (F := Ideal) x (ix4 b k r s) = val_main_v3 (F := Ideal) x (ix4 b c r s) := by
  unfold val_main_v9
  exact concatenate_apply_piece (1 : Fin 4) _ _ (ix4 b k r s) 3 (by show (3 : Nat) < 9; omega) S2x96x222x222 (val_main_v3 (F := Ideal) x) rfl rfl 288 rfl
    (ix4 b c r s) (fun a ha => match a with | ⟨0, _⟩ => rfl | ⟨1, _⟩ => absurd rfl ha | ⟨2, _⟩ => rfl | ⟨3, _⟩ => rfl)
    (by show 288 + c.val = k.val; omega)

theorem joined_piece4 (x : (⟨S2x96x224x224, .f32⟩ : BufTy).Contents (Elt Ideal)) (b : Fin 2) (k : Fin 864) (r s : Fin 222) (c : Fin 96)
    (hk : k.val = 384 + c.val) :
    val_main_v9 (F := Ideal) x (ix4 b k r s) = val_main_v4 (F := Ideal) x (ix4 b c r s) := by
  unfold val_main_v9
  exact concatenate_apply_piece (1 : Fin 4) _ _ (ix4 b k r s) 4 (by show (4 : Nat) < 9; omega) S2x96x222x222 (val_main_v4 (F := Ideal) x) rfl rfl 384 rfl
    (ix4 b c r s) (fun a ha => match a with | ⟨0, _⟩ => rfl | ⟨1, _⟩ => absurd rfl ha | ⟨2, _⟩ => rfl | ⟨3, _⟩ => rfl)
    (by show 384 + c.val = k.val; omega)

theorem joined_piece5 (x : (⟨S2x96x224x224, .f32⟩ : BufTy).Contents (Elt Ideal)) (b : Fin 2) (k : Fin 864) (r s : Fin 222) (c : Fin 96)
    (hk : k.val = 480 + c.val) :
    val_main_v9 (F := Ideal) x (ix4 b k r s) = val_main_v5 (F := Ideal) x (ix4 b c r s) := by
  unfold val_main_v9
  exact concatenate_apply_piece (1 : Fin 4) _ _ (ix4 b k r s) 5 (by show (5 : Nat) < 9; omega) S2x96x222x222 (val_main_v5 (F := Ideal) x) rfl rfl 480 rfl
    (ix4 b c r s) (fun a ha => match a with | ⟨0, _⟩ => rfl | ⟨1, _⟩ => absurd rfl ha | ⟨2, _⟩ => rfl | ⟨3, _⟩ => rfl)
    (by show 480 + c.val = k.val; omega)

theorem joined_piece6 (x : (⟨S2x96x224x224, .f32⟩ : BufTy).Contents (Elt Ideal)) (b : Fin 2) (k : Fin 864) (r s : Fin 222) (c : Fin 96)
    (hk : k.val = 576 + c.val) :
    val_main_v9 (F := Ideal) x (ix4 b k r s) = val_main_v6 (F := Ideal) x (ix4 b c r s) := by
  unfold val_main_v9
  exact concatenate_apply_piece (1 : Fin 4) _ _ (ix4 b k r s) 6 (by show (6 : Nat) < 9; omega) S2x96x222x222 (val_main_v6 (F := Ideal) x) rfl rfl 576 rfl
    (ix4 b c r s) (fun a ha => match a with | ⟨0, _⟩ => rfl | ⟨1, _⟩ => absurd rfl ha | ⟨2, _⟩ => rfl | ⟨3, _⟩ => rfl)
    (by show 576 + c.val = k.val; omega)

theorem joined_piece7 (x : (⟨S2x96x224x224, .f32⟩ : BufTy).Contents (Elt Ideal)) (b : Fin 2) (k : Fin 864) (r s : Fin 222) (c : Fin 96)
    (hk : k.val = 672 + c.val) :
    val_main_v9 (F := Ideal) x (ix4 b k r s) = val_main_v7 (F := Ideal) x (ix4 b c r s) := by
  unfold val_main_v9
  exact concatenate_apply_piece (1 : Fin 4) _ _ (ix4 b k r s) 7 (by show (7 : Nat) < 9; omega) S2x96x222x222 (val_main_v7 (F := Ideal) x) rfl rfl 672 rfl
    (ix4 b c r s) (fun a ha => match a with | ⟨0, _⟩ => rfl | ⟨1, _⟩ => absurd rfl ha | ⟨2, _⟩ => rfl | ⟨3, _⟩ => rfl)
    (by show 672 + c.val = k.val; omega)

theorem joined_piece8 (x : (⟨S2x96x224x224, .f32⟩ : BufTy).Contents (Elt Ideal)) (b : Fin 2) (k : Fin 864) (r s : Fin 222) (c : Fin 96)
    (hk : k.val = 768 + c.val) :
    val_main_v9 (F := Ideal) x (ix4 b k r s) = val_main_v8 (F := Ideal) x (ix4 b c r s) := by
  unfold val_main_v9
  exact concatenate_apply_piece (1 : Fin 4) _ _ (ix4 b k r s) 8 (by show (8 : Nat) < 9; omega) S2x96x222x222 (val_main_v8 (F := Ideal) x) rfl rfl 768 rfl
    (ix4 b c r s) (fun a ha => match a with | ⟨0, _⟩ => rfl | ⟨1, _⟩ => absurd rfl ha | ⟨2, _⟩ => rfl | ⟨3, _⟩ => rfl)
    (by show 768 + c.val = k.val; omega)

/-! ## The joined array at an index

Joined channel k lies in piece k / 96 — one of nine — at channel k % 96; piece 3 i + j is the input shifted by i rows and
j columns, and i = k / 288, j = k / 96 % 3. -/

/-- Entry (b, k, r, s) of the joined array is the input entry that weight column k reads at output position (b, ·, r, s). -/
theorem joined_apply (x : (⟨S2x96x224x224, .f32⟩ : BufTy).Contents (Elt Ideal)) (b : Fin 2) (k : Fin 864) (r s : Fin 222) :
    val_main_v9 (F := Ideal) x (ix4 b k r s) = x (Cert.ConvSpec.tap b r s k) := by
  have hk : k.val < 864 := k.isLt
  have hq : k.val / 96 = 0 ∨ k.val / 96 = 1 ∨ k.val / 96 = 2 ∨ k.val / 96 = 3 ∨ k.val / 96 = 4 ∨ k.val / 96 = 5 ∨
      k.val / 96 = 6 ∨ k.val / 96 = 7 ∨ k.val / 96 = 8 := by omega
  rcases hq with h | h | h | h | h | h | h | h | h
  · rw [joined_piece0 x b k r s (Cert.ConvSpec.chan k) (by show k.val = 0 + k.val % 96; omega), val_main_v0_apply]
    exact congrArg x (funext fun a => Fin.ext (by
      match a with
      | ⟨0, _⟩ => rfl
      | ⟨1, _⟩ => rfl
      | ⟨2, _⟩ => show r.val = r.val + k.val / 288; omega
      | ⟨3, _⟩ => show s.val = s.val + k.val / 96 % 3; omega))
  · rw [joined_piece1 x b k r s (Cert.ConvSpec.chan k) (by show k.val = 96 + k.val % 96; omega), val_main_v1_apply]
    exact congrArg x (funext fun a => Fin.ext (by
      match a with
      | ⟨0, _⟩ => rfl
      | ⟨1, _⟩ => rfl
      | ⟨2, _⟩ => show r.val = r.val + k.val / 288; omega
      | ⟨3, _⟩ => show 1 + s.val = s.val + k.val / 96 % 3; omega))
  · rw [joined_piece2 x b k r s (Cert.ConvSpec.chan k) (by show k.val = 192 + k.val % 96; omega), val_main_v2_apply]
    exact congrArg x (funext fun a => Fin.ext (by
      match a with
      | ⟨0, _⟩ => rfl
      | ⟨1, _⟩ => rfl
      | ⟨2, _⟩ => show r.val = r.val + k.val / 288; omega
      | ⟨3, _⟩ => show 2 + s.val = s.val + k.val / 96 % 3; omega))
  · rw [joined_piece3 x b k r s (Cert.ConvSpec.chan k) (by show k.val = 288 + k.val % 96; omega), val_main_v3_apply]
    exact congrArg x (funext fun a => Fin.ext (by
      match a with
      | ⟨0, _⟩ => rfl
      | ⟨1, _⟩ => rfl
      | ⟨2, _⟩ => show 1 + r.val = r.val + k.val / 288; omega
      | ⟨3, _⟩ => show s.val = s.val + k.val / 96 % 3; omega))
  · rw [joined_piece4 x b k r s (Cert.ConvSpec.chan k) (by show k.val = 384 + k.val % 96; omega), val_main_v4_apply]
    exact congrArg x (funext fun a => Fin.ext (by
      match a with
      | ⟨0, _⟩ => rfl
      | ⟨1, _⟩ => rfl
      | ⟨2, _⟩ => show 1 + r.val = r.val + k.val / 288; omega
      | ⟨3, _⟩ => show 1 + s.val = s.val + k.val / 96 % 3; omega))
  · rw [joined_piece5 x b k r s (Cert.ConvSpec.chan k) (by show k.val = 480 + k.val % 96; omega), val_main_v5_apply]
    exact congrArg x (funext fun a => Fin.ext (by
      match a with
      | ⟨0, _⟩ => rfl
      | ⟨1, _⟩ => rfl
      | ⟨2, _⟩ => show 1 + r.val = r.val + k.val / 288; omega
      | ⟨3, _⟩ => show 2 + s.val = s.val + k.val / 96 % 3; omega))
  · rw [joined_piece6 x b k r s (Cert.ConvSpec.chan k) (by show k.val = 576 + k.val % 96; omega), val_main_v6_apply]
    exact congrArg x (funext fun a => Fin.ext (by
      match a with
      | ⟨0, _⟩ => rfl
      | ⟨1, _⟩ => rfl
      | ⟨2, _⟩ => show 2 + r.val = r.val + k.val / 288; omega
      | ⟨3, _⟩ => show s.val = s.val + k.val / 96 % 3; omega))
  · rw [joined_piece7 x b k r s (Cert.ConvSpec.chan k) (by show k.val = 672 + k.val % 96; omega), val_main_v7_apply]
    exact congrArg x (funext fun a => Fin.ext (by
      match a with
      | ⟨0, _⟩ => rfl
      | ⟨1, _⟩ => rfl
      | ⟨2, _⟩ => show 2 + r.val = r.val + k.val / 288; omega
      | ⟨3, _⟩ => show 1 + s.val = s.val + k.val / 96 % 3; omega))
  · rw [joined_piece8 x b k r s (Cert.ConvSpec.chan k) (by show k.val = 768 + k.val % 96; omega), val_main_v8_apply]
    exact congrArg x (funext fun a => Fin.ext (by
      match a with
      | ⟨0, _⟩ => rfl
      | ⟨1, _⟩ => rfl
      | ⟨2, _⟩ => show 2 + r.val = r.val + k.val / 288; omega
      | ⟨3, _⟩ => show 2 + s.val = s.val + k.val / 96 % 3; omega))

/-! ## The reference's result

The flat position of (f, b, r, s) in [96, 2, 222, 222] is ((2 f + b) 222 + r) 222 + s = 98568 f + (222 b + r) 222 + s, so
its row in [96, 98568] is f and its column m = (222 b + r) 222 + s < 98568; the flat position of (k, m) in [864, 98568] is
98568 k + m, whose coordinates in [864, 2, 222, 222] are (k, b, r, s). -/

/-- The reference's last stage is the convolution. -/
theorem ref_is_conv (x : FVec Ideal S2x96x224x224 .f32) (kv km : FVec Ideal S96x864 .f32) :
    Cert.ReferenceIdeal.Read.val_main_v15 (F := Ideal) x kv km = Cert.ConvSpec.conv x kv km := by
  funext i
  obtain ⟨b, f, r, s, rfl⟩ : ∃ (b : Fin 2) (f : Fin 96) (r s : Fin 222), i = ix4 b f r s := ⟨i 0, i 1, i 2, i 3, eq_ix4 i⟩
  have hb : b.val < 2 := b.isLt
  have hf : f.val < 96 := f.isLt
  have hr : r.val < 222 := r.isLt
  have hs : s.val < 222 := s.isLt
  rw [Cert.ConvSpec.conv_apply, val_main_v15_apply, val_main_v14_apply, val_main_v13_apply]
  refine Finset.sum_congr rfl fun k _ => ?_
  have hk : k.val < 864 := k.isLt
  have e1 : lidx_main_v13 (idx_main_v14 (idx_main_v15 (ix4 b f r s))) k = ix2 f k := funext fun a => Fin.ext (by
    match a with
    | ⟨0, _⟩ => show (((f.val * 2 + b.val) * 222 + r.val) * 222 + s.val) / 98568 = f.val; omega
    | ⟨1, _⟩ => rfl)
  have e2 : idx_main_v10 (idx_main_v11 (ridx_main_v13 (idx_main_v14 (idx_main_v15 (ix4 b f r s))) k)) = ix4 b k r s :=
    funext fun a => Fin.ext (by
      match a with
      | ⟨0, _⟩ => show (k.val * 98568 + (((f.val * 2 + b.val) * 222 + r.val) * 222 + s.val) % 98568) / 49284 % 2 = b.val; omega
      | ⟨1, _⟩ => show (k.val * 98568 + (((f.val * 2 + b.val) * 222 + r.val) * 222 + s.val) % 98568) / 98568 = k.val; omega
      | ⟨2, _⟩ => show (k.val * 98568 + (((f.val * 2 + b.val) * 222 + r.val) * 222 + s.val) % 98568) / 222 % 222 = r.val; omega
      | ⟨3, _⟩ => show (k.val * 98568 + (((f.val * 2 + b.val) * 222 + r.val) * 222 + s.val) % 98568) % 222 = s.val; omega)
  rw [val_main_v12_apply, val_main_v11_apply, val_main_v10_apply, e1, e2, joined_apply]
  rfl

end Cert.RefIsConv

end
-- ==== Proof.Claims.lean ====
/-
  The five claims, assembled.

  The three frames: each program runs to the end, faults nowhere, and leaves its arguments as launched. For the kernel
  (read at words) and its idealization (read at the extended reals) this is the region's run read at the three argument
  arrays, which the pipeline only ever reads; for the reference it is its run with the result forgotten.
  The idealization rewrote no operation, so there is nothing to preserve.
  At the extended reals, from memories that agree on the arguments, the kernel's result array ends at the convolution
  of the specification (the run, then the blocks written back assembled into the array) and so does the reference's
  (its run, its last stage read entry by entry): equal results.
-/
import proofs.«113754_g33251636806221_cont_8to1_b_887_22_alg».proof.Defs
import proofs.«113754_g33251636806221_cont_8to1_b_887_22_alg».proof.Proof.BitsRun
import proofs.«113754_g33251636806221_cont_8to1_b_887_22_alg».proof.Proof.IdealRun
import proofs.«113754_g33251636806221_cont_8to1_b_887_22_alg».proof.Proof.RefIsConv
import proofs.«113754_g33251636806221_cont_8to1_b_887_22_alg».proof.Proof.Gen.ReferenceIdeal.Run
import proofs.«113754_g33251636806221_cont_8to1_b_887_22_alg».proof.Proof.Gen.ReferenceIdeal.Read
import proofs.«113754_g33251636806221_cont_8to1_b_887_22_alg».proof.Proof.Gen.Pre_finite_inputs

noncomputable section

namespace Cert.Proof.ConvClaims

open Idealize.ShloMosaic Idealize.ShloMosaic.TcCoe Idealize.SL.Sem

theorem frame_k : Cert.frame_Kernel := fun m ρ _ => Cert.Kernel.Conv.frame m ρ

theorem frame_ki : Cert.frame_KernelIdeal := fun m ρ _ => Cert.KernelIdeal.Conv.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Equal results, given what the kernel's result array holds after the run: the convolution of the launch contents
    of the three arguments. -/
theorem algebraic_of
    (hfinal : ∀ (m : (ℓ : Loc Cert.KernelIdeal.nD Cert.KernelIdeal.τ Cert.KernelIdeal.sig) → Buf (Elt Ideal) ℓ) (c : Dev Cert.KernelIdeal.nD),
      Cert.KernelIdeal.Conv.finalA m c 4
        = Cert.ConvSpec.conv (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))) :
    Cert.algebraic_KernelIdeal_ReferenceIdeal := by
  intro m ρ m' ρ' _ hagree
  refine ⟨fun c => Cert.ConvSpec.conv (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)), ?_, ?_⟩
  · exact (θ_run Cert.KernelIdeal.defs _ _).mono
      (fun _ h c => ⟨(h c (4 : Fin 5)).trans (hfinal m c),
        (h c (2 : Fin 5)).trans (Cert.KernelIdeal.Conv.finalA_in m c 2 rfl),
        (h c (0 : Fin 5)).trans (Cert.KernelIdeal.Conv.finalA_in m c 0 rfl),
        (h c (1 : Fin 5)).trans (Cert.KernelIdeal.Conv.finalA_in m c 1 rfl)⟩)
      (Cert.KernelIdeal.Conv.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, Cert.RefIsConv.ref_is_conv, (hagree c).1, (hagree c).2.1, (hagree c).2.2]

end Cert.Proof.ConvClaims

end
-- ==== Proof.PayloadAt.lean ====
/-
  The kernel body's one stored value, entry by entry.

  The body multiplies the weight by its mask (w = kv * km), joins the 32 rows of the main block and the 8 rows of the
  halo block, keeps the first 34 rows, pads every row of 224 entries with 32 zeros and lays the 34 padded rows of a
  channel end to end: flat (c, 256 y + z) = padded (c, y, z). A copy of flat rolled left by j columns reads
  flat (c, (n + j) mod 8704). The matrix xcol has the nine blocks of 96 rows, block 3 i + j being the 8192 columns from
  256 i on of the copy rolled by j; so its row k = (3 i + j) * 96 + c reads, at column n, flat (c, n + 256 i + j) as long
  as that column is below 8704 - j. The product w · xcol, cut to the first 222 of every 256 columns, is the stored value:
  at (f, rr, s) the column is n = 256 rr + s, the entry read is padded (c, rr + i, s + j) with s + j < 224, an entry of
  the joined blocks and not of the padding. That is the block convolution of the specification.
-/
import proofs.«113754_g33251636806221_cont_8to1_b_887_22_alg».proof.Proof.Gen.KernelIdeal.Skeleton
import proofs.«113754_g33251636806221_cont_8to1_b_887_22_alg».proof.Proof.ConvSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PayloadAt

open Idealize.ShloMosaic Idealize.ShloMosaic.ValueIdx Cert.KernelIdeal Cert.KernelIdeal.Gen

/-! ## The body's intermediate values, named -/

/-- The main block's 32 rows followed by the halo block's 8 rows: [96, 40, 224]. -/
def joined (v4 : FVec Ideal S1x96x32x224 .f32) (v6 : FVec Ideal S1x96x8x224 .f32) : FVec Ideal S96x40x224 .f32 :=
  concatenate S96x40x224 1 [⟨S96x32x224, shapeCast S96x32x224 v4 shapeCasts_S1x96x32x224_S96x32x224⟩,
    ⟨S96x8x224, shapeCast S96x8x224 v6 shapeCasts_S1x96x8x224_S96x8x224⟩] concatenates_S96x32x224_S96x8x224_S96x40x224_d1

/-- The first 34 joined rows, each padded on the right with 32 zero columns: [96, 34, 256]. -/
def padded (v4 : FVec Ideal S1x96x32x224 .f32) (v6 : FVec Ideal S1x96x8x224 .f32) : FVec Ideal S96x34x256 .bf16 :=
  concatenate S96x34x256 2 [⟨S96x34x224, extractStridedSlice S96x34x224 ![0, 0, 0]
      (truncf (F := Ideal) .bf16 (joined v4 v6) bitsLt_bf16_f32) slices_S96x40x224_o0_0_0_S96x34x224⟩,
    ⟨S96x34x32, broadcast S96x34x32 (Scalar.ofBits (F := Ideal) .bf16 0x0000#16)⟩] concatenates_S96x34x224_S96x34x32_S96x34x256_d2

/-- The padded rows of a channel end to end: flat (c, 256 y + z) = padded (c, y, z). -/
def flat (v4 : FVec Ideal S1x96x32x224 .f32) (v6 : FVec Ideal S1x96x8x224 .f32) : FVec Ideal S96x8704 .bf16 :=
  shapeCast S96x8704 (padded v4 v6) shapeCasts_S96x34x256_S96x8704

/-- A matrix of 8704 columns rolled left by one column. -/
def roll1 (x : FVec Ideal S96x8704 .bf16) : FVec Ideal S96x8704 .bf16 :=
  concatenate S96x8704 1 [⟨S96x8703, extractStridedSlice S96x8703 ![0, 1] x slices_S96x8704_o0_1_S96x8703⟩,
    ⟨S96x1, extractStridedSlice S96x1 ![0, 0] x slices_S96x8704_o0_0_S96x1⟩] concatenates_S96x8703_S96x1_S96x8704_d1

/-- A matrix of 8704 columns rolled left by two columns. -/
def roll2 (x : FVec Ideal S96x8704 .bf16) : FVec Ideal S96x8704 .bf16 :=
  concatenate S96x8704 1 [⟨S96x8702, extractStridedSlice S96x8702 ![0, 2] x slices_S96x8704_o0_2_S96x8702⟩,
    ⟨S96x2, extractStridedSlice S96x2 ![0, 0] x slices_S96x8704_o0_0_S96x2⟩] concatenates_S96x8702_S96x2_S96x8704_d1

/-- The nine blocks of 96 rows: block 3 i + j is the 8192 columns from 256 i on of the copy rolled by j. -/
def blocks (x : FVec Ideal S96x8704 .bf16) : List ((s : Shape) × (s.Idx → Ideal .bf16)) := [
    ⟨S96x8192, extractStridedSlice S96x8192 ![0, 0] x slices_S96x8704_o0_0_S96x8192⟩,
    ⟨S96x8192, extractStridedSlice S96x8192 ![0, 0] (roll1 x) slices_S96x8704_o0_0_S96x8192⟩,
    ⟨S96x8192, extractStridedSlice S96x8192 ![0, 0] (roll2 x) slices_S96x8704_o0_0_S96x8192⟩,
    ⟨S96x8192, extractStridedSlice S96x8192 ![0, 256] x slices_S96x8704_o0_256_S96x8192⟩,
    ⟨S96x8192, extractStridedSlice S96x8192 ![0, 256] (roll1 x) slices_S96x8704_o0_256_S96x8192⟩,
    ⟨S96x8192, extractStridedSlice S96x8192 ![0, 256] (roll2 x) slices_S96x8704_o0_256_S96x8192⟩,
    ⟨S96x8192, extractStridedSlice S96x8192 ![0, 512] x slices_S96x8704_o0_512_S96x8192⟩,
    ⟨S96x8192, extractStridedSlice S96x8192 ![0, 512] (roll1 x) slices_S96x8704_o0_512_S96x8192⟩,
    ⟨S96x8192, extractStridedSlice S96x8192 ![0, 512] (roll2 x) slices_S96x8704_o0_512_S96x8192⟩]

/-- The nine blocks joined along the rows: [864, 8192]. -/
def xcol (x : FVec Ideal S96x8704 .bf16) : FVec Ideal S864x8192 .bf16 :=
  concatenate S864x8192 0 (blocks x)
    concatenates_S96x8192_S96x8192_S96x8192_S96x8192_S96x8192_S96x8192_S96x8192_S96x8192_S96x8192_S864x8192_d0

/-- The product of the masked weight with xcol, into a zero accumulator: [96, 8192]. -/
def prod (v0 v1 : FVec Ideal S96x864 .f32) (v4 : FVec Ideal S1x96x32x224 .f32) (v6 : FVec Ideal S1x96x8x224 .f32) :
    FVec Ideal S96x8192 .f32 :=
  matmul dot_S96x864_S864x8192_S96x8192_1_0_0_1_n_n none (truncf (F := Ideal) .bf16 (mulf v0 v1) bitsLt_bf16_f32)
    (xcol (flat v4 v6)) (constant (F := Ideal) S96x8192 .f32 0x00000000#32)

/-- The stored value is the product reshaped to [96, 32, 256], cut to the first 222 columns, under a unit axis. -/
theorem k0_pay1_eq (v0 v1 : FVec Ideal S96x864 .f32) (v4 : FVec Ideal S1x96x32x224 .f32) (v6 : FVec Ideal S1x96x8x224 .f32) :
    k0_pay1 (F := Ideal) v0 v1 v4 v6 =
      shapeCast S1x96x32x222 (extractStridedSlice S96x32x222 ![0, 0, 0]
        (shapeCast S96x32x256 (prod v0 v1 v4 v6) shapeCasts_S96x8192_S96x32x256) slices_S96x32x256_o0_0_0_S96x32x222)
        shapeCasts_S96x32x222_S1x96x32x222 := rfl

/-! ## The flattened rows at an index -/

section Flat
variable (v4 : FVec Ideal S1x96x32x224 .f32) (v6 : FVec Ideal S1x96x8x224 .f32)

/-- A joined row below 32 is that row of the main block. -/
theorem joined_main (c : Fin 96) (y : Fin 40) (z : Fin 224) (h : y.val < 32) :
    joined v4 v6 (ix3 c y z) = v4 (ix4 (0 : Fin 1) c ⟨y.val, h⟩ z) := by
  unfold joined
  refine (concatenate_pair_apply_left _ _ _ concatenates_S96x32x224_S96x8x224_S96x40x224_d1 (ix3 c y z) rfl
    (ix3 c (⟨y.val, h⟩ : Fin 32) z) (fun b => by
      match b with
      | ⟨0, _⟩ => rfl
      | ⟨1, _⟩ => rfl
      | ⟨2, _⟩ => rfl)).trans ?_
  exact shapeCast_1abc_abc_apply v4 _ c ⟨y.val, h⟩ z

/-- A joined row from 32 on is row y - 32 of the halo block. -/
theorem joined_halo (c : Fin 96) (y : Fin 40) (z : Fin 224) (h : 32 ≤ y.val) :
    joined v4 v6 (ix3 c y z) = v6 (ix4 (0 : Fin 1) c ⟨y.val - 32, by have := y.isLt; omega⟩ z) := by
  unfold joined
  refine (concatenate_pair_apply_right _ _ _ concatenates_S96x32x224_S96x8x224_S96x40x224_d1 (ix3 c y z) rfl rfl
    (ix3 c (⟨y.val - 32, by have := y.isLt; omega⟩ : Fin 8) z) (fun b hb => by
      match b with
      | ⟨0, _⟩ => rfl
      | ⟨1, _⟩ => exact absurd rfl hb
      | ⟨2, _⟩ => rfl) (by show y.val - 32 + 32 = y.val; omega)).trans ?_
  exact shapeCast_1abc_abc_apply v6 _ c _ z

/-- A padded row at a column below 224 is the joined row at that column. -/
theorem padded_left (c : Fin 96) (y : Fin 34) (z : Fin 224) (z' : Fin 256) (hz : z'.val = z.val) :
    padded v4 v6 (ix3 c y z') = joined v4 v6 (ix3 c (⟨y.val, by have := y.isLt; omega⟩ : Fin 40) z) := by
  unfold padded
  refine (concatenate_pair_apply_left _ _ _ concatenates_S96x34x224_S96x34x32_S96x34x256_d2 (ix3 c y z') rfl
    (ix3 c y z) (fun b => by
      match b with
      | ⟨0, _⟩ => rfl
      | ⟨1, _⟩ => rfl
      | ⟨2, _⟩ => exact hz.symm)).trans ?_
  exact extractStridedSlice_apply _ _ slices_S96x40x224_o0_0_0_S96x34x224 (ix3 c y z)
    (ix3 c (⟨y.val, by have := y.isLt; omega⟩ : Fin 40) z) (fun a => by
      match a with
      | ⟨0, _⟩ => exact (Nat.zero_add _).symm
      | ⟨1, _⟩ => exact (Nat.zero_add _).symm
      | ⟨2, _⟩ => exact (Nat.zero_add _).symm)

/-- The flattened rows at column 256 y + z' read padded row y at column z'. -/
theorem flat_padded (c : Fin 96) (y : Fin 34) (z' : Fin 256) (n : Fin 8704) (hn : n.val = 256 * y.val + z'.val) :
    flat v4 v6 (ix2 c n) = padded v4 v6 (ix3 c y z') := by
  unfold flat
  exact shapeCast_apply _ shapeCasts_S96x34x256_S96x8704 (ix2 c n) (ix3 c y z') (by
    rw [Shape.rowMajor_val_three, Shape.rowMajor_val_two]
    show (c.val * 34 + y.val) * 256 + z'.val = c.val * 8704 + n.val
    omega)

/-- The flattened rows at column 256 y + z with z below 224 read the point's input row y at column z. -/
theorem flat_slab (c : Fin 96) (y : Fin 34) (z : Fin 224) (n : Fin 8704) (hn : n.val = 256 * y.val + z.val) :
    flat v4 v6 (ix2 c n) = Cert.ConvSpec.slab v4 v6 c y z := by
  rw [flat_padded v4 v6 c y (⟨z.val, by have := z.isLt; omega⟩ : Fin 256) n hn, padded_left v4 v6 c y z _ rfl]
  unfold Cert.ConvSpec.slab
  by_cases h : y.val < 32
  · rw [dif_pos h]; exact joined_main v4 v6 c _ z h
  · rw [dif_neg h]; exact joined_halo v4 v6 c _ z (Nat.le_of_not_lt h)

end Flat

/-! ## The rolled copies and the nine blocks at an index -/

section Xcol
variable (x : FVec Ideal S96x8704 .bf16)

/-- The copy rolled by one column reads, at a column below 8703, the next column. -/
theorem roll1_left (c : Fin 96) (q m : Fin 8704) (hq : q.val < 8703) (hm : m.val = q.val + 1) :
    roll1 x (ix2 c q) = x (ix2 c m) := by
  unfold roll1
  refine (concatenate_pair_apply_left _ _ _ concatenates_S96x8703_S96x1_S96x8704_d1 (ix2 c q) rfl
    (ix2 c (⟨q.val, hq⟩ : Fin 8703)) (fun b => by
      match b with
      | ⟨0, _⟩ => rfl
      | ⟨1, _⟩ => rfl)).trans ?_
  exact slice2_axis1_apply 1 x slices_S96x8704_o0_1_S96x8703 c (⟨q.val, hq⟩ : Fin 8703) m (by show m.val = 1 + q.val; omega)

/-- The copy rolled by two columns reads, at a column below 8702, the column two further. -/
theorem roll2_left (c : Fin 96) (q m : Fin 8704) (hq : q.val < 8702) (hm : m.val = q.val + 2) :
    roll2 x (ix2 c q) = x (ix2 c m) := by
  unfold roll2
  refine (concatenate_pair_apply_left _ _ _ concatenates_S96x8702_S96x2_S96x8704_d1 (ix2 c q) rfl
    (ix2 c (⟨q.val, hq⟩ : Fin 8702)) (fun b => by
      match b with
      | ⟨0, _⟩ => rfl
      | ⟨1, _⟩ => rfl)).trans ?_
  exact slice2_axis1_apply 2 x slices_S96x8704_o0_2_S96x8702 c (⟨q.val, hq⟩ : Fin 8702) m (by show m.val = 2 + q.val; omega)

/-- The 8192 columns from o on of a matrix of 8704 columns read, at column n, its column o + n. -/
theorem cut_at (o : Nat) (h : S96x8704.Slices ![0, o] S96x8192) (X : FVec Ideal S96x8704 .bf16) (c : Fin 96) (n : Fin 8192)
    (q : Fin 8704) (hq : q.val = o + n.val) : extractStridedSlice S96x8192 ![0, o] X h (ix2 c n) = X (ix2 c q) :=
  slice2_axis1_apply o X h c n q hq

/-- Row k = (3 i + j) * 96 + c of xcol reads, at a column n below 8190, row c at column n + 256 i + j: the column
    256 i + n of the copy rolled by j lies in the part of that copy that is not wrapped around. -/
theorem xcol_at (k : Fin 864) (n : Fin 8192) (hn : n.val < 8190) (c : Fin 96) (m : Fin 8704)
    (hc : c.val = k.val % 96) (hm : m.val = n.val + 256 * (k.val / 288) + k.val / 96 % 3) :
    xcol x (ix2 k n) = x (ix2 c m) := by
  have hk := k.isLt
  have hi : ∀ b : Fin S96x8192.rank, b.cast (rfl : S96x8192.rank = S864x8192.rank) ≠ (0 : Fin S864x8192.rank) →
      ((ix2 c n : S96x8192.Idx) b).val = ((ix2 k n : S864x8192.Idx) (b.cast rfl)).val := fun b hb => by
    match b with
    | ⟨0, _⟩ => exact absurd rfl hb
    | ⟨1, _⟩ => rfl
  have hlen : (blocks x).length = 9 := rfl
  unfold xcol
  rcases (show k.val / 96 = 0 ∨ k.val / 96 = 1 ∨ k.val / 96 = 2 ∨ k.val / 96 = 3 ∨ k.val / 96 = 4 ∨ k.val / 96 = 5 ∨
      k.val / 96 = 6 ∨ k.val / 96 = 7 ∨ k.val / 96 = 8 by omega) with h | h | h | h | h | h | h | h | h
  · refine (concatenate_apply_piece (0 : Fin S864x8192.rank) (blocks x) concatenates_S96x8192_S96x8192_S96x8192_S96x8192_S96x8192_S96x8192_S96x8192_S96x8192_S96x8192_S864x8192_d0 (ix2 k n) 0
      (by rw [hlen]; decide) S96x8192 _ rfl rfl 0 rfl (ix2 c n) hi (by show 0 + c.val = k.val; omega)).trans ?_
    exact cut_at 0 _ x c n m (by omega)
  · refine (concatenate_apply_piece (0 : Fin S864x8192.rank) (blocks x) concatenates_S96x8192_S96x8192_S96x8192_S96x8192_S96x8192_S96x8192_S96x8192_S96x8192_S96x8192_S864x8192_d0 (ix2 k n) 1
      (by rw [hlen]; decide) S96x8192 _ rfl rfl 96 rfl (ix2 c n) hi (by show 96 + c.val = k.val; omega)).trans ?_
    refine (cut_at 0 _ (roll1 x) c n (⟨0 + n.val, by omega⟩ : Fin 8704) rfl).trans ?_
    exact roll1_left x c _ m (by show 0 + n.val < 8703; omega) (by show m.val = 0 + n.val + 1; omega)
  · refine (concatenate_apply_piece (0 : Fin S864x8192.rank) (blocks x) concatenates_S96x8192_S96x8192_S96x8192_S96x8192_S96x8192_S96x8192_S96x8192_S96x8192_S96x8192_S864x8192_d0 (ix2 k n) 2
      (by rw [hlen]; decide) S96x8192 _ rfl rfl 192 rfl (ix2 c n) hi (by show 192 + c.val = k.val; omega)).trans ?_
    refine (cut_at 0 _ (roll2 x) c n (⟨0 + n.val, by omega⟩ : Fin 8704) rfl).trans ?_
    exact roll2_left x c _ m (by show 0 + n.val < 8702; omega) (by show m.val = 0 + n.val + 2; omega)
  · refine (concatenate_apply_piece (0 : Fin S864x8192.rank) (blocks x) concatenates_S96x8192_S96x8192_S96x8192_S96x8192_S96x8192_S96x8192_S96x8192_S96x8192_S96x8192_S864x8192_d0 (ix2 k n) 3
      (by rw [hlen]; decide) S96x8192 _ rfl rfl 288 rfl (ix2 c n) hi (by show 288 + c.val = k.val; omega)).trans ?_
    exact cut_at 256 _ x c n m (by omega)
  · refine (concatenate_apply_piece (0 : Fin S864x8192.rank) (blocks x) concatenates_S96x8192_S96x8192_S96x8192_S96x8192_S96x8192_S96x8192_S96x8192_S96x8192_S96x8192_S864x8192_d0 (ix2 k n) 4
      (by rw [hlen]; decide) S96x8192 _ rfl rfl 384 rfl (ix2 c n) hi (by show 384 + c.val = k.val; omega)).trans ?_
    refine (cut_at 256 _ (roll1 x) c n (⟨256 + n.val, by omega⟩ : Fin 8704) rfl).trans ?_
    exact roll1_left x c _ m (by show 256 + n.val < 8703; omega) (by show m.val = 256 + n.val + 1; omega)
  · refine (concatenate_apply_piece (0 : Fin S864x8192.rank) (blocks x) concatenates_S96x8192_S96x8192_S96x8192_S96x8192_S96x8192_S96x8192_S96x8192_S96x8192_S96x8192_S864x8192_d0 (ix2 k n) 5
      (by rw [hlen]; decide) S96x8192 _ rfl rfl 480 rfl (ix2 c n) hi (by show 480 + c.val = k.val; omega)).trans ?_
    refine (cut_at 256 _ (roll2 x) c n (⟨256 + n.val, by omega⟩ : Fin 8704) rfl).trans ?_
    exact roll2_left x c _ m (by show 256 + n.val < 8702; omega) (by show m.val = 256 + n.val + 2; omega)
  · refine (concatenate_apply_piece (0 : Fin S864x8192.rank) (blocks x) concatenates_S96x8192_S96x8192_S96x8192_S96x8192_S96x8192_S96x8192_S96x8192_S96x8192_S96x8192_S864x8192_d0 (ix2 k n) 6
      (by rw [hlen]; decide) S96x8192 _ rfl rfl 576 rfl (ix2 c n) hi (by show 576 + c.val = k.val; omega)).trans ?_
    exact cut_at 512 _ x c n m (by omega)
  · refine (concatenate_apply_piece (0 : Fin S864x8192.rank) (blocks x) concatenates_S96x8192_S96x8192_S96x8192_S96x8192_S96x8192_S96x8192_S96x8192_S96x8192_S96x8192_S864x8192_d0 (ix2 k n) 7
      (by rw [hlen]; decide) S96x8192 _ rfl rfl 672 rfl (ix2 c n) hi (by show 672 + c.val = k.val; omega)).trans ?_
    refine (cut_at 512 _ (roll1 x) c n (⟨512 + n.val, by omega⟩ : Fin 8704) rfl).trans ?_
    exact roll1_left x c _ m (by show 512 + n.val < 8703; omega) (by show m.val = 512 + n.val + 1; omega)
  · refine (concatenate_apply_piece (0 : Fin S864x8192.rank) (blocks x) concatenates_S96x8192_S96x8192_S96x8192_S96x8192_S96x8192_S96x8192_S96x8192_S96x8192_S96x8192_S864x8192_d0 (ix2 k n) 8
      (by rw [hlen]; decide) S96x8192 _ rfl rfl 768 rfl (ix2 c n) hi (by show 768 + c.val = k.val; omega)).trans ?_
    refine (cut_at 512 _ (roll2 x) c n (⟨512 + n.val, by omega⟩ : Fin 8704) rfl).trans ?_
    exact roll2_left x c _ m (by show 512 + n.val < 8702; omega) (by show m.val = 512 + n.val + 2; omega)

end Xcol

/-! ## The product and the stored value at an index -/

section Product
variable (v0 v1 : FVec Ideal S96x864 .f32) (v4 : FVec Ideal S1x96x32x224 .f32) (v6 : FVec Ideal S1x96x8x224 .f32)

theorem lhs_row (i : S96x8192.Idx) (q : dot_S96x864_S864x8192_S96x8192_1_0_0_1_n_n.contr.Idx) :
    (dot_S96x864_S864x8192_S96x8192_1_0_0_1_n_n.lhsIdx i q 0).val = (i 0).val := by
  unfold DotDims.lhsIdx
  rw [dif_neg (show ¬(0 : Fin S96x864.rank) ∈ dot_S96x864_S864x8192_S96x8192_1_0_0_1_n_n.lhsBatch by decide), dif_pos (show (0 : Fin S96x864.rank) ∈ dot_S96x864_S864x8192_S96x8192_1_0_0_1_n_n.lhsNonContracting by decide)]
  rfl
theorem lhs_col (i : S96x8192.Idx) (q : dot_S96x864_S864x8192_S96x8192_1_0_0_1_n_n.contr.Idx) :
    (dot_S96x864_S864x8192_S96x8192_1_0_0_1_n_n.lhsIdx i q 1).val = (q ⟨0, by decide⟩).val :=
  dot_S96x864_S864x8192_S96x8192_1_0_0_1_n_n.lhsIdx_val_of_single rfl i q
theorem rhs_row (i : S96x8192.Idx) (q : dot_S96x864_S864x8192_S96x8192_1_0_0_1_n_n.contr.Idx) :
    (dot_S96x864_S864x8192_S96x8192_1_0_0_1_n_n.rhsIdx i q 0).val = (q ⟨0, by decide⟩).val :=
  dot_S96x864_S864x8192_S96x8192_1_0_0_1_n_n.rhsIdx_val_of_single rfl i q
theorem rhs_col (i : S96x8192.Idx) (q : dot_S96x864_S864x8192_S96x8192_1_0_0_1_n_n.contr.Idx) :
    (dot_S96x864_S864x8192_S96x8192_1_0_0_1_n_n.rhsIdx i q 1).val = (i 1).val := by
  unfold DotDims.rhsIdx
  rw [dif_neg (show ¬(1 : Fin S864x8192.rank) ∈ dot_S96x864_S864x8192_S96x8192_1_0_0_1_n_n.rhsBatch by decide), dif_pos (show (1 : Fin S864x8192.rank) ∈ dot_S96x864_S864x8192_S96x8192_1_0_0_1_n_n.rhsNonContracting by decide)]
  rfl

/-- The product at (f, n) is the sum over the 864 rows k of xcol of the masked weight at (f, k) times xcol at (k, n). -/
theorem prod_at (f : Fin 96) (n : Fin 8192) :
    prod v0 v1 v4 v6 (ix2 f n) = ∑ k : Fin 864, (v0 (ix2 f k) * v1 (ix2 f k)) * xcol (flat v4 v6) (ix2 k n) := by
  unfold prod
  generalize xcol (flat v4 v6) = X
  show FloatOps.matmul dot_S96x864_S864x8192_S96x8192_1_0_0_1_n_n none (truncf (F := Ideal) .bf16 (mulf v0 v1) bitsLt_bf16_f32) X
    (constant (F := Ideal) S96x8192 .f32 0x00000000#32) (ix2 f n) = _
  rw [Ideal.matmul_constant_zero_apply, ← Equiv.sum_comp (contrEquiv1 dot_S96x864_S864x8192_S96x8192_1_0_0_1_n_n 864 rfl rfl).symm]
  refine Finset.sum_congr rfl fun k _ => ?_
  have hk := contrEquiv1_symm_val dot_S96x864_S864x8192_S96x8192_1_0_0_1_n_n 864 rfl rfl k
  have el : dot_S96x864_S864x8192_S96x8192_1_0_0_1_n_n.lhsIdx (ix2 f n) ((contrEquiv1 dot_S96x864_S864x8192_S96x8192_1_0_0_1_n_n 864 rfl rfl).symm k) = ix2 f k := funext fun a => Fin.ext (by
    match a with
    | ⟨0, _⟩ => exact lhs_row _ _
    | ⟨1, _⟩ => exact (lhs_col _ _).trans hk)
  have er : dot_S96x864_S864x8192_S96x8192_1_0_0_1_n_n.rhsIdx (ix2 f n) ((contrEquiv1 dot_S96x864_S864x8192_S96x8192_1_0_0_1_n_n 864 rfl rfl).symm k) = ix2 k n := funext fun a => Fin.ext (by
    match a with
    | ⟨0, _⟩ => exact (rhs_row _ _).trans hk
    | ⟨1, _⟩ => exact rhs_col _ _)
  rw [el, er]
  rfl

end Product

/-! ## The stored value is the block convolution -/

/-- What the body stores at entry (0, f, rr, s) of its output block is the block convolution of its four loads: the
    entry is the product at column n = 256 rr + s; row k of xcol reads there the flattened rows of channel k % 96 at
    column 256 (rr + k / 288) + (s + k / 96 % 3), and s + k / 96 % 3 is below 224. -/
theorem payload_at (v0 v1 : Vec Ideal S96x864 .f32) (v4 : Vec Ideal S1x96x32x224 .f32) (v6 : Vec Ideal S1x96x8x224 .f32)
    (f : Fin 96) (rr : Fin 32) (s : Fin 222) :
    k0_pay1 (F := Ideal) v0 v1 v4 v6 (ix4 (0 : Fin 1) f rr s) = Cert.ConvSpec.blockConv v0 v1 v4 v6 f rr s := by
  have hrr := rr.isLt
  have hs := s.isLt
  rw [k0_pay1_eq]
  refine (shapeCast_abc_1abc_apply _ shapeCasts_S96x32x222_S1x96x32x222 (0 : Fin 1) f rr s).trans ?_
  refine (extractStridedSlice_apply _ _ slices_S96x32x256_o0_0_0_S96x32x222 (ix3 f rr s)
    (ix3 f rr (⟨s.val, by omega⟩ : Fin 256)) (fun a => by
      match a with
      | ⟨0, _⟩ => exact (Nat.zero_add _).symm
      | ⟨1, _⟩ => exact (Nat.zero_add _).symm
      | ⟨2, _⟩ => exact (Nat.zero_add _).symm)).trans ?_
  refine (shapeCast_apply _ shapeCasts_S96x8192_S96x32x256 (ix3 f rr (⟨s.val, by omega⟩ : Fin 256))
    (ix2 f (⟨256 * rr.val + s.val, by omega⟩ : Fin 8192)) (by
      rw [Shape.rowMajor_val_two, Shape.rowMajor_val_three]
      show f.val * 8192 + (256 * rr.val + s.val) = (f.val * 32 + rr.val) * 256 + s.val
      omega)).trans ?_
  rw [prod_at]
  unfold Cert.ConvSpec.blockConv
  refine Finset.sum_congr rfl fun k _ => ?_
  have hk := k.isLt
  refine congrArg (fun t => v0 (ix2 f k) * v1 (ix2 f k) * t) ?_
  rw [xcol_at (flat v4 v6) k _ (by show 256 * rr.val + s.val < 8190; omega) (Cert.ConvSpec.chan k)
    (⟨256 * (rr.val + k.val / 288) + (s.val + k.val / 96 % 3), by omega⟩ : Fin 8704) rfl
    (by show 256 * (rr.val + k.val / 288) + (s.val + k.val / 96 % 3)
          = 256 * rr.val + s.val + 256 * (k.val / 288) + k.val / 96 % 3; omega)]
  exact flat_slab v4 v6 (Cert.ConvSpec.chan k) (Cert.ConvSpec.slabRow rr k) (Cert.ConvSpec.colOf s k) _ rfl

end Cert.PayloadAt

end
-- ==== Proof.OutValue.lean ====
/-
  The result array after the kernel's run is the convolution of the specification.

  The grid has 2 x 7 points; point (b, i) computes rows 32 i .. 32 i + 31 of image b of the result, and writes back the
  rows among them that lie inside the 222-row array: all 32 for i < 6, the first 30 for i = 6. It reads the two weight
  arrays whole, the main block — rows 32 i .. 32 i + 31 of image b of the input — and the halo block — the 8 input rows
  that start at row 8 * min (4 i + 4, 27).

  What point (b, i) writes back at entry (f, rr, s) of its block — entry (b, f, r, s) of the array, r = 32 i + rr < 222 —
  is, by the hypothesis on the payload, the sum over k < 864 of (kv (f, k) * km (f, k)) times the slab entry at channel
  k % 96, slab row rr + k / 288, column s + k / 96 % 3. A slab row y < 32 is row y of the main block, input row 32 i + y. A
  slab row y = 32 or 33 is row y - 32 of the halo block; it is read only when rr >= 30, and then r < 222 forces i <= 5, so
  min (4 i + 4, 27) = 4 i + 4 and the halo row is input row 8 (4 i + 4) + y - 32 = 32 i + y again. In both cases the slab
  entry is x (b, k % 96, r + k / 288, s + k / 96 % 3), the specification's tap: the written block is the block of the
  convolution. Every entry (b, f, r, s) of the result lies in the block of point (b, r / 32), so the blocks cover the
  array and the array ends holding the convolution.
-/
import proofs.«113754_g33251636806221_cont_8to1_b_887_22_alg».proof.Proof.IdealRun
import proofs.«113754_g33251636806221_cont_8to1_b_887_22_alg».proof.Proof.ConvSpec
import Idealize.ShloMosaic.Lib.Pipeline.Value
import Idealize.ShloMosaic.Lib.ValueIdx

noncomputable section

open scoped BigOperators

namespace Cert.KernelIdeal.ConvValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The index maps over the grid

The weight windows sit at block (0, 0) at every point; the main window's block index is the result window's, (b, 0, i, 0);
the halo window's is (b, 0, min (4 i + 4, 27), 0); b <= 1 and i <= 6; the result's block is cut on the row axis only, to
the rows below 222. Every (b, i) is some point's. -/

/-- The relations between the five windows' block indices, and the cut of the result's block, at every point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 4) = win0_4.index t (0 : Fin 4) ∧ win0_2.index t (1 : Fin 4) = 0
    ∧ win0_2.index t (2 : Fin 4) = win0_4.index t (2 : Fin 4) ∧ win0_2.index t (3 : Fin 4) = 0
    ∧ win0_3.index t (0 : Fin 4) = win0_4.index t (0 : Fin 4) ∧ win0_3.index t (1 : Fin 4) = 0
    ∧ win0_3.index t (2 : Fin 4) = min (4 * win0_4.index t (2 : Fin 4) + 4) 27 ∧ win0_3.index t (3 : Fin 4) = 0
    ∧ win0_4.index t (0 : Fin 4) ≤ 1 ∧ win0_4.index t (1 : Fin 4) = 0
    ∧ win0_4.index t (2 : Fin 4) ≤ 6 ∧ win0_4.index t (3 : Fin 4) = 0
    ∧ win0_4.xsize (grid0.coords t) (0 : Fin 4) = 1 ∧ win0_4.xsize (grid0.coords t) (1 : Fin 4) = 96
    ∧ win0_4.index t (2 : Fin 4) * 32 + win0_4.xsize (grid0.coords t) (2 : Fin 4) = min (win0_4.index t (2 : Fin 4) * 32 + 32) 222
    ∧ win0_4.xsize (grid0.coords t) (3 : Fin 4) = 222 :=
  (by decide +kernel : ∀ t : Fin grid0.N, _)

/-- Every image b and row block i is some point's. -/
theorem idx_onto : ∀ (q0 : Fin 2) (q2 : Fin 7), ∃ t : Fin cfg0.N,
    win0_4.index t (0 : Fin 4) = q0.val ∧ win0_4.index t (2 : Fin 4) = q2.val :=
  (by decide +kernel : ∀ (q0 : Fin 2) (q2 : Fin 7), ∃ t : Fin grid0.N, _)

/-- An index of the result is in point t's written block iff each coordinate is in the block's cut range on its axis. -/
theorem mem_blk (t : Fin cfg0.N) (i : S2x96x222x222.Idx) :
    i ∈ ((cfg0.win 4).blk t).view.set ↔ ∀ a : Fin 4, win0_4.index t a * S1x96x32x222.size a ≤ (i a).val
      ∧ (i a).val < win0_4.index t a * S1x96x32x222.size a + win0_4.xsize (grid0.coords t) a := by
  show i ∈ ((View.whole main_v0).slice (win0_4.rect t)).set ↔ _
  rw [View.set_slice_whole, Rect.mem_set_unit]
  exact Iff.rfl

/-! ## The input blocks at an index

A block's entry y sits in its array at block index times block size plus y, axis by axis. -/

section

variable (m : (ℓ : Loc nD τ sig) → Buf (Elt Ideal) ℓ)

/-- The first weight block is the first weight array. -/
theorem kv_at (c : Dev nD) (t : Fin cfg0.N) (f : Fin 96) (k : Fin 864) :
    (Conv.iblk m c 0 t : Vec Ideal S96x864 .f32) (ix2 f k) = (m ((c : Thread nD τ).loc main_arg1) : S96x864.Idx → Elt Ideal .f32) (ix2 f k) := by
  obtain ⟨e0, e1, -⟩ := idx_facts t
  unfold Conv.iblk
  rw [View.read_apply]
  show Conv.V m c main_arg1 _ = m (c.tc.loc main_arg1) _
  unfold Conv.V
  congr 1
  funext a
  apply Fin.ext
  match a with
  | ⟨0, _⟩ => show win0_0.index t (0 : Fin 2) * 96 + 1 * f.val = f.val; omega
  | ⟨1, _⟩ => show win0_0.index t (1 : Fin 2) * 864 + 1 * k.val = k.val; omega

/-- The second weight block is the second weight array. -/
theorem km_at (c : Dev nD) (t : Fin cfg0.N) (f : Fin 96) (k : Fin 864) :
    (Conv.iblk m c 1 t : Vec Ideal S96x864 .f32) (ix2 f k) = (m ((c : Thread nD τ).loc main_arg2) : S96x864.Idx → Elt Ideal .f32) (ix2 f k) := by
  obtain ⟨-, -, e0, e1, -⟩ := idx_facts t
  unfold Conv.iblk
  rw [View.read_apply]
  show Conv.V m c main_arg2 _ = m (c.tc.loc main_arg2) _
  unfold Conv.V
  congr 1
  funext a
  apply Fin.ext
  match a with
  | ⟨0, _⟩ => show win0_1.index t (0 : Fin 2) * 96 + 1 * f.val = f.val; omega
  | ⟨1, _⟩ => show win0_1.index t (1 : Fin 2) * 864 + 1 * k.val = k.val; omega

/-- Row y of the main block at point (b, i) is input row 32 i + y of image b. -/
theorem main_at (c : Dev nD) (t : Fin cfg0.N) (b : Fin 2) (i : Fin 7)
    (hb : win0_4.index t (0 : Fin 4) = b.val) (hi : win0_4.index t (2 : Fin 4) = i.val)
    (ch : Fin 96) (y : Fin 32) (z : Fin 224) (R : Fin 224) (hR : R.val = 32 * i.val + y.val) :
    (Conv.iblk m c 2 t : Vec Ideal S1x96x32x224 .f32) (ix4 (0 : Fin 1) ch y z)
      = (m ((c : Thread nD τ).loc main_arg0) : S2x96x224x224.Idx → Elt Ideal .f32) (ix4 b ch R z) := by
  obtain ⟨-, -, -, -, e0, e1, e2, e3, -⟩ := idx_facts t
  unfold Conv.iblk
  rw [View.read_apply]
  show Conv.V m c main_arg0 _ = m (c.tc.loc main_arg0) _
  unfold Conv.V
  congr 1
  funext a
  apply Fin.ext
  match a with
  | ⟨0, _⟩ => show win0_2.index t (0 : Fin 4) * 1 + 1 * 0 = b.val; omega
  | ⟨1, _⟩ => show win0_2.index t (1 : Fin 4) * 96 + 1 * ch.val = ch.val; omega
  | ⟨2, _⟩ => show win0_2.index t (2 : Fin 4) * 32 + 1 * y.val = R.val; omega
  | ⟨3, _⟩ => show win0_2.index t (3 : Fin 4) * 224 + 1 * z.val = z.val; omega

/-- Row y of the halo block at point (b, i) is input row 8 * min (4 i + 4, 27) + y of image b. -/
theorem halo_at (c : Dev nD) (t : Fin cfg0.N) (b : Fin 2) (i : Fin 7)
    (hb : win0_4.index t (0 : Fin 4) = b.val) (hi : win0_4.index t (2 : Fin 4) = i.val)
    (ch : Fin 96) (y : Fin 8) (z : Fin 224) (R : Fin 224) (hR : R.val = 8 * min (4 * i.val + 4) 27 + y.val) :
    (Conv.iblk m c 3 t : Vec Ideal S1x96x8x224 .f32) (ix4 (0 : Fin 1) ch y z)
      = (m ((c : Thread nD τ).loc main_arg0) : S2x96x224x224.Idx → Elt Ideal .f32) (ix4 b ch R z) := by
  obtain ⟨-, -, -, -, -, -, -, -, e0, e1, e2, e3, -⟩ := idx_facts t
  unfold Conv.iblk
  rw [View.read_apply]
  show Conv.V m c main_arg0 _ = m (c.tc.loc main_arg0) _
  unfold Conv.V
  congr 1
  funext a
  apply Fin.ext
  match a with
  | ⟨0, _⟩ => show win0_3.index t (0 : Fin 4) * 1 + 1 * 0 = b.val; omega
  | ⟨1, _⟩ => show win0_3.index t (1 : Fin 4) * 96 + 1 * ch.val = ch.val; omega
  | ⟨2, _⟩ => show win0_3.index t (2 : Fin 4) * 8 + 1 * y.val = R.val; omega
  | ⟨3, _⟩ => show win0_3.index t (3 : Fin 4) * 224 + 1 * z.val = z.val; omega

/-! ## The slab is the input

Stated over any main and halo blocks that read the input as the two windows do, for an output row r = 32 i + rr inside the
array: slab row rr + k / 288 is input row r + k / 288, whether it falls in the main block or in the halo block. -/

/-- The slab entry that weight column k reads for block row rr is the input entry it reads for array row r = 32 i + rr. -/
theorem slab_eq (X : FVec Ideal Cert.ConvSpec.SX .f32) (main : FVec Ideal Cert.ConvSpec.SMain .f32) (halo : FVec Ideal Cert.ConvSpec.SHalo .f32)
    (b : Fin 2) (i : Fin 7)
    (hmain : ∀ (ch : Fin 96) (y : Fin 32) (z : Fin 224) (R : Fin 224), R.val = 32 * i.val + y.val →
      main (ix4 (0 : Fin 1) ch y z) = X (ix4 b ch R z))
    (hhalo : ∀ (ch : Fin 96) (y : Fin 8) (z : Fin 224) (R : Fin 224), R.val = 8 * min (4 * i.val + 4) 27 + y.val →
      halo (ix4 (0 : Fin 1) ch y z) = X (ix4 b ch R z))
    (rr : Fin 32) (r : Fin 222) (hr : r.val = 32 * i.val + rr.val) (s : Fin 222) (k : Fin 864) :
    Cert.ConvSpec.slab main halo (Cert.ConvSpec.chan k) (Cert.ConvSpec.slabRow rr k) (Cert.ConvSpec.colOf s k)
      = X (Cert.ConvSpec.tap b r s k) := by
  have hk : k.val < 864 := k.isLt
  have hrr : rr.val < 32 := rr.isLt
  have hrl : r.val < 222 := r.isLt
  have hi : i.val < 7 := i.isLt
  unfold Cert.ConvSpec.slab Cert.ConvSpec.tap
  split
  · rename_i h
    have h' : rr.val + k.val / 288 < 32 := h
    exact hmain _ _ _ _ (by show r.val + k.val / 288 = 32 * i.val + (rr.val + k.val / 288); omega)
  · rename_i h
    have h' : ¬ rr.val + k.val / 288 < 32 := h
    exact hhalo _ _ _ _ (by show r.val + k.val / 288 = 8 * min (4 * i.val + 4) 27 + (rr.val + k.val / 288 - 32); omega)

/-! ## What a point writes back

The rows of the payload inside the array are the same rows of the convolution. -/

/-- What point t writes back is block t of the convolution of the three argument arrays. -/
theorem flushed_eq
    (hpay : ∀ (v0 v1 : Vec Ideal S96x864 .f32) (v4 : Vec Ideal S1x96x32x224 .f32) (v6 : Vec Ideal S1x96x8x224 .f32) (f : Fin 96) (rr : Fin 32) (s : Fin 222),
        Gen.k0_pay1 (F := Ideal) v0 v1 v4 v6 (ix4 (0 : Fin 1) f rr s) = Cert.ConvSpec.blockConv v0 v1 v4 v6 f rr s)
    (c : Dev nD) (t : Fin cfg0.N) :
    (Conv.dats m 0 c).flushed 4 t = ((cfg0.win 4).blk t).view.read (Elt Ideal)
      (Cert.ConvSpec.conv (m ((c : Thread nD τ).loc main_arg0)) (m ((c : Thread nD τ).loc main_arg1)) (m ((c : Thread nD τ).loc main_arg2))) := by
  show (cfg0.win 4).cut (grid0.coords t) ((Conv.dats m 0 c).after 4 t) = _
  rw [Conv.after0_4, Conv.out4_eq]
  obtain ⟨-, -, -, -, -, -, -, -, -, -, -, -, g0, g1, g2, g3, x0, x1, x2, x3⟩ := idx_facts t
  funext j
  rw [View.read_apply]
  have hj0 : (j 0).val < win0_4.xsize (grid0.coords t) (0 : Fin 4) := (j 0).isLt
  have hj1 : (j 1).val < win0_4.xsize (grid0.coords t) (1 : Fin 4) := (j 1).isLt
  have hj2 : (j 2).val < win0_4.xsize (grid0.coords t) (2 : Fin 4) := (j 2).isLt
  have hj3 : (j 3).val < win0_4.xsize (grid0.coords t) (3 : Fin 4) := (j 3).isLt
  -- the point's image b and row block i; the entry's filter f, row rr in the block, column s; its row r in the array
  obtain ⟨b, hb⟩ : ∃ b : Fin 2, win0_4.index t (0 : Fin 4) = b.val := ⟨⟨win0_4.index t (0 : Fin 4), by omega⟩, rfl⟩
  obtain ⟨i, hi⟩ : ∃ i : Fin 7, win0_4.index t (2 : Fin 4) = i.val := ⟨⟨win0_4.index t (2 : Fin 4), by omega⟩, rfl⟩
  obtain ⟨f, hf⟩ : ∃ f : Fin 96, (j 1).val = f.val := ⟨⟨(j 1).val, by omega⟩, rfl⟩
  obtain ⟨rr, hrr⟩ : ∃ rr : Fin 32, (j 2).val = rr.val := ⟨⟨(j 2).val, by omega⟩, rfl⟩
  obtain ⟨s, hs⟩ : ∃ s : Fin 222, (j 3).val = s.val := ⟨⟨(j 3).val, by omega⟩, rfl⟩
  obtain ⟨r, hr⟩ : ∃ r : Fin 222, r.val = 32 * i.val + rr.val := ⟨⟨32 * i.val + rr.val, by omega⟩, rfl⟩
  have eL : ((cfg0.win 4).xinj (grid0.coords t) j : S1x96x32x222.Idx) = ix4 (0 : Fin 1) f rr s := funext fun a => Fin.ext (by
    match a with
    | ⟨0, _⟩ => show (j 0).val = 0; omega
    | ⟨1, _⟩ => exact hf
    | ⟨2, _⟩ => exact hrr
    | ⟨3, _⟩ => exact hs)
  have eR : (((cfg0.win 4).blk t).view.emb j : S2x96x222x222.Idx) = ix4 b f r s := funext fun a => Fin.ext (by
    match a with
    | ⟨0, _⟩ => show win0_4.index t (0 : Fin 4) * 1 + 1 * (j 0).val = b.val; omega
    | ⟨1, _⟩ => show win0_4.index t (1 : Fin 4) * 96 + 1 * (j 1).val = f.val; omega
    | ⟨2, _⟩ => show win0_4.index t (2 : Fin 4) * 32 + 1 * (j 2).val = r.val; omega
    | ⟨3, _⟩ => show win0_4.index t (3 : Fin 4) * 222 + 1 * (j 3).val = s.val; omega)
  show Gen.k0_pay1 (F := Ideal) (Conv.iblk m c 0 t) (Conv.iblk m c 1 t) (Conv.iblk m c 2 t) (Conv.iblk m c 3 t) ((cfg0.win 4).xinj (grid0.coords t) j)
    = Cert.ConvSpec.conv (m ((c : Thread nD τ).loc main_arg0)) (m ((c : Thread nD τ).loc main_arg1)) (m ((c : Thread nD τ).loc main_arg2)) (((cfg0.win 4).blk t).view.emb j)
  rw [eL, eR, hpay, Cert.ConvSpec.conv_apply]
  unfold Cert.ConvSpec.blockConv
  refine Finset.sum_congr rfl fun k _ => ?_
  rw [kv_at m c t f k, km_at m c t f k,
    slab_eq (m ((c : Thread nD τ).loc main_arg0)) (Conv.iblk m c 2 t) (Conv.iblk m c 3 t) b i
      (fun ch y z R hR => main_at m c t b i hb hi ch y z R hR) (fun ch y z R hR => halo_at m c t b i hb hi ch y z R hR) rr r hr s k]

/-! ## The blocks cover the result

Entry (b, f, r, s) lies in the block of the point with image b and row block r / 32: 32 (r / 32) <= r, and r is below both
32 (r / 32) + 32 and 222. -/

/-- Every index of the result is in some point's written block, and every point writes back. -/
theorem cover (i : S2x96x222x222.Idx) :
    ∃ t : Fin cfg0.N, (cfg0.win 4).flush t = true ∧ i ∈ ((cfg0.win 4).blk t).view.set := by
  have h0 : (i 0).val < 2 := (i 0).isLt
  have h1 : (i 1).val < 96 := (i 1).isLt
  have h2 : (i 2).val < 222 := (i 2).isLt
  have h3 : (i 3).val < 222 := (i 3).isLt
  obtain ⟨t, q0, q2⟩ := idx_onto ⟨(i 0).val, h0⟩ ⟨(i 2).val / 32, by omega⟩
  have q0' : win0_4.index t (0 : Fin 4) = (i 0).val := q0
  have q2' : win0_4.index t (2 : Fin 4) = (i 2).val / 32 := q2
  obtain ⟨-, -, -, -, -, -, -, -, -, -, -, -, g0, g1, g2, g3, x0, x1, x2, x3⟩ := idx_facts t
  refine ⟨t, flush0_4 t, ?_⟩
  rw [mem_blk]
  intro a
  match a with
  | ⟨0, _⟩ =>
    show win0_4.index t (0 : Fin 4) * 1 ≤ (i 0).val ∧ (i 0).val < win0_4.index t (0 : Fin 4) * 1 + win0_4.xsize (grid0.coords t) (0 : Fin 4)
    omega
  | ⟨1, _⟩ =>
    show win0_4.index t (1 : Fin 4) * 96 ≤ (i 1).val ∧ (i 1).val < win0_4.index t (1 : Fin 4) * 96 + win0_4.xsize (grid0.coords t) (1 : Fin 4)
    omega
  | ⟨2, _⟩ =>
    show win0_4.index t (2 : Fin 4) * 32 ≤ (i 2).val ∧ (i 2).val < win0_4.index t (2 : Fin 4) * 32 + win0_4.xsize (grid0.coords t) (2 : Fin 4)
    omega
  | ⟨3, _⟩ =>
    show win0_4.index t (3 : Fin 4) * 222 ≤ (i 3).val ∧ (i 3).val < win0_4.index t (3 : Fin 4) * 222 + win0_4.xsize (grid0.coords t) (3 : Fin 4)
    omega

end

/-! ## The result array after the run -/

/-- Given the payload at an index as the block convolution of the four loaded blocks, the result array after the last
    write-back is the convolution of the three argument arrays as launched. -/
theorem final_out
    (hpay : ∀ (v0 v1 : Vec Ideal S96x864 .f32) (v4 : Vec Ideal S1x96x32x224 .f32) (v6 : Vec Ideal S1x96x8x224 .f32) (f : Fin 96) (rr : Fin 32) (s : Fin 222),
        Gen.k0_pay1 (F := Ideal) v0 v1 v4 v6 (ix4 (0 : Fin 1) f rr s) = Cert.ConvSpec.blockConv v0 v1 v4 v6 f rr s)
    (m : (ℓ : Loc nD τ sig) → Buf (Elt Ideal) ℓ) (c : Dev nD) :
    Conv.finalA m c 4 = Cert.ConvSpec.conv (m ((c : Thread nD τ).loc main_arg0)) (m ((c : Thread nD τ).loc main_arg1)) (m ((c : Thread nD τ).loc main_arg2)) := by
  unfold Conv.finalA
  exact (Conv.dats m 0 c).arrAt_eq_of_cover 4 _ (fun t _ => flushed_eq m hpay c t) cover

end Cert.KernelIdeal.ConvValue

end
-- ==== Proof.lean ====
/-
  The claim: a Pallas 3x3 valid convolution with a masked weight, computed row block by row block on a 2 x 7 grid as
  one [96, 864] x [864, 8192] matrix product per block over an im2col operand built in place (the 34 input rows of a
  block, their rows padded to 256 columns and laid end to end, shifted by 256 i + j for tap (i, j)), equals the
  reference, which slices the input nine ways, joins the slices and contracts them with the same masked weight.

  Read at the extended reals both programs end with

    out (b, f, r, s) = sum over k < 864 of (kv (f, k) * km (f, k)) * x (b, k % 96, r + k / 288, s + k / 96 % 3),

  the sums term by term in the same order (Proof/ConvSpec.lean): the reference by reading its stages at an index
  (Proof/RefIsConv.lean), the kernel by reading its body's one stored value at an index (Proof/PayloadAt.lean: the
  shifts never wrap around and never reach the zero padding at the 222 columns that are kept), each grid point's
  block against the input array (Proof/OutValue.lean: the two extra rows a block needs come from the next 8 rows of the
  input, except at the last row block, whose clamped duplicate only feeds output rows past the end of the result, which
  are not written back), and the blocks covering the result. The three programs' runs are Proof/BitsRun.lean,
  Proof/IdealRun.lean (one text at the two readings: the pipeline's five windows, two of them on the one input array
  held at half the ownership each, the result's last block cut at the array's end) and the reference's generated run;
  Proof/Claims.lean assembles the five claims.
-/
import proofs.«113754_g33251636806221_cont_8to1_b_887_22_alg».proof.Defs
import proofs.«113754_g33251636806221_cont_8to1_b_887_22_alg».proof.Proof.Gen.Kernel
import proofs.«113754_g33251636806221_cont_8to1_b_887_22_alg».proof.Proof.Gen.Kernel.Skeleton
import proofs.«113754_g33251636806221_cont_8to1_b_887_22_alg».proof.Proof.Gen.Kernel.Launch
import proofs.«113754_g33251636806221_cont_8to1_b_887_22_alg».proof.Proof.Gen.Kernel.Points
import proofs.«113754_g33251636806221_cont_8to1_b_887_22_alg».proof.Proof.Gen.KernelIdeal
import proofs.«113754_g33251636806221_cont_8to1_b_887_22_alg».proof.Proof.Gen.KernelIdeal.Skeleton
import proofs.«113754_g33251636806221_cont_8to1_b_887_22_alg».proof.Proof.Gen.KernelIdeal.Launch
import proofs.«113754_g33251636806221_cont_8to1_b_887_22_alg».proof.Proof.Gen.KernelIdeal.Points
import proofs.«113754_g33251636806221_cont_8to1_b_887_22_alg».proof.Proof.Gen.ReferenceIdeal
import proofs.«113754_g33251636806221_cont_8to1_b_887_22_alg».proof.Proof.Gen.Pre_finite_inputs
import proofs.«113754_g33251636806221_cont_8to1_b_887_22_alg».proof.Proof.Claims
import proofs.«113754_g33251636806221_cont_8to1_b_887_22_alg».proof.Proof.PayloadAt
import proofs.«113754_g33251636806221_cont_8to1_b_887_22_alg».proof.Proof.OutValue
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    ConvClaims.frame_k, ConvClaims.frame_ki, ConvClaims.frame_ri, ConvClaims.preserves,
    ConvClaims.algebraic_of fun m c => Cert.KernelIdeal.ConvValue.final_out Cert.PayloadAt.payload_at m c⟩

end Cert.Proof

end
